-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x64 : Shape := ⟨4, ![4, 8, 2048, 64]⟩
abbrev S4x8x64x2048 : Shape := ⟨4, ![4, 8, 64, 2048]⟩
abbrev S4x8x2048x2048 : Shape := ⟨4, ![4, 8, 2048, 2048]⟩
abbrev S_ : Shape := ⟨0, ![]⟩

class Facts : Prop where
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  h_S_ : 0 < S_.numel
  bcast_S_S4x8x64x2048 : S_.BroadcastsInDim S4x8x64x2048 (![] : Fin 0 → Fin S4x8x64x2048.rank)
  reducesTo_S4x8x64x2048_S_d0_1_2_3 : S4x8x64x2048.ReducesTo [0, 1, 2, 3] S_
  bcast_S_S4x8x2048x2048 : S_.BroadcastsInDim S4x8x2048x2048 (![] : Fin 0 → Fin S4x8x2048x2048.rank)
  reducesTo_S4x8x2048x2048_S_d0_1_2_3 : S4x8x2048x2048.ReducesTo [0, 1, 2, 3] S_

variable [Facts]

def fn_part1 {F : FTy → Type} [FloatOps F] (main_v13 : IVec S_ 1) (main_v16 : IVec S4x8x2048x2048 1) : IVec S_ 1 :=
  let main_c_5 : IVec S_ 1 := constantI S_ 1 1#1
  let main_v17 : IVec S_ 1 := (fun x v => Host.reduce IntOp.andi x v reducesTo_S4x8x2048x2048_S_d0_1_2_3 h_S_) main_v16 main_c_5
  let main_v18 : IVec S_ 1 := andi main_v13 main_v17
  main_v18

def fn {F : FTy → Type} [FloatOps F] (main_arg0 : FVec F S4x8x2048x64 .f32) (main_arg1 : FVec F S4x8x64x2048 .f32) (main_arg2 : FVec F S4x8x2048x64 .f32) (main_arg3 : FVec F S4x8x2048x2048 .f32) : IVec S_ 1 :=
  let main_v0 : FVec F S4x8x2048x64 .f32 := Host.absf main_arg0
  let main_cst : FVec F S_ .f32 := constant S_ .f32 0x7F800000#32
  let main_v1 : FVec F S4x8x2048x64 .f32 := broadcastInDim S4x8x2048x64 ![] bcast_S_S4x8x2048x64 main_cst
  let main_v2 : IVec S4x8x2048x64 1 := cmpf .olt main_v0 main_v1
  let main_c : IVec S_ 1 := constantI S_ 1 1#1
  let main_v3 : IVec S_ 1 := (fun x v => Host.reduce IntOp.andi x v reducesTo_S4x8x2048x64_S_d0_1_2_3 h_S_) main_v2 main_c
  let main_v4 : FVec F S4x8x64x2048 .f32 := Host.absf main_arg1
  let main_cst_0 : FVec F S_ .f32 := constant S_ .f32 0x7F800000#32
  let main_v5 : FVec F S4x8x64x2048 .f32 := broadcastInDim S4x8x64x2048 ![] bcast_S_S4x8x64x2048 main_cst_0
  let main_v6 : IVec S4x8x64x2048 1 := cmpf .olt main_v4 main_v5
  let main_c_1 : IVec S_ 1 := constantI S_ 1 1#1
  let main_v7 : IVec S_ 1 := (fun x v => Host.reduce IntOp.andi x v reducesTo_S4x8x64x2048_S_d0_1_2_3 h_S_) main_v6 main_c_1
  let main_v8 : IVec S_ 1 := andi main_v3 main_v7
  let main_v9 : FVec F S4x8x2048x64 .f32 := Host.absf main_arg2
  let main_cst_2 : FVec F S_ .f32 := constant S_ .f32 0x7F800000#32
  let main_v10 : FVec F S4x8x2048x64 .f32 := broadcastInDim S4x8x2048x64 ![] bcast_S_S4x8x2048x64 main_cst_2
  let main_v11 : IVec S4x8x2048x64 1 := cmpf .olt main_v9 main_v10
  let main_c_3 : IVec S_ 1 := constantI S_ 1 1#1
  let main_v12 : IVec S_ 1 := (fun x v => Host.reduce IntOp.andi x v reducesTo_S4x8x2048x64_S_d0_1_2_3 h_S_) main_v11 main_c_3
  let main_v13 : IVec S_ 1 := andi main_v8 main_v12
  let main_v14 : FVec F S4x8x2048x2048 .f32 := Host.absf main_arg3
  let main_cst_4 : FVec F S_ .f32 := constant S_ .f32 0x7F800000#32
  let main_v15 : FVec F S4x8x2048x2048 .f32 := broadcastInDim S4x8x2048x2048 ![] bcast_S_S4x8x2048x2048 main_cst_4
  let main_v16 : IVec S4x8x2048x2048 1 := cmpf .olt main_v14 main_v15
  fn_part1 (F := F) main_v13 main_v16
-- ==== Kernel.lean ====
abbrev S4x8x2048x64 : Shape := ⟨4, ![4, 8, 2048, 64]⟩
abbrev S4x8x64x2048 : Shape := ⟨4, ![4, 8, 64, 2048]⟩
abbrev S4x8x2048x2048 : Shape := ⟨4, ![4, 8, 2048, 2048]⟩
abbrev S32x2048x64 : Shape := ⟨3, ![32, 2048, 64]⟩
abbrev S32x64x2048 : Shape := ⟨3, ![32, 64, 2048]⟩
abbrev S32x2048x2048 : Shape := ⟨3, ![32, 2048, 2048]⟩
abbrev S1x512x64 : Shape := ⟨3, ![1, 512, 64]⟩
abbrev S1x64x2048 : Shape := ⟨3, ![1, 64, 2048]⟩
abbrev S1x2048x64 : Shape := ⟨3, ![1, 2048, 64]⟩
abbrev S1x512x2048 : Shape := ⟨3, ![1, 512, 2048]⟩
abbrev S512x64 : Shape := ⟨2, ![512, 64]⟩
abbrev S64x2048 : Shape := ⟨2, ![64, 2048]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 14
  | .smem => 0
  | _ => 0

abbrev bufTy : (tb : Table) → Fin (tcTables nBuf tb) → BufTy
  | .hbm, ⟨0, _⟩ => ⟨S4x8x2048x64, .f32⟩
  | .hbm, ⟨1, _⟩ => ⟨S4x8x64x2048, .f32⟩
  | .hbm, ⟨2, _⟩ => ⟨S4x8x2048x64, .f32⟩
  | .hbm, ⟨3, _⟩ => ⟨S4x8x2048x2048, .f32⟩
  | .hbm, ⟨4, _⟩ => ⟨S32x2048x64, .f32⟩
  | .hbm, ⟨5, _⟩ => ⟨S32x64x2048, .f32⟩
  | .hbm, ⟨6, _⟩ => ⟨S32x2048x64, .f32⟩
  | .hbm, ⟨7, _⟩ => ⟨S32x2048x2048, .f32⟩
  | .hbm, ⟨8, _⟩ => ⟨S32x2048x64, .f32⟩
  | .hbm, ⟨9, _⟩ => ⟨S32x2048x2048, .f32⟩
  | .hbm, ⟨10, _⟩ => ⟨S32x2048x2048, .f32⟩
  | .hbm, ⟨11, _⟩ => ⟨S4x8x2048x64, .f32⟩
  | .hbm, ⟨12, _⟩ => ⟨S4x8x2048x2048, .f32⟩
  | .hbm, ⟨13, _⟩ => ⟨S4x8x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x64x2048, .f32⟩
  | .local _ .vmem, ⟨3, _⟩ => ⟨S1x64x2048, .f32⟩
  | .local _ .vmem, ⟨4, _⟩ => ⟨S1x2048x64, .f32⟩
  | .local _ .vmem, ⟨5, _⟩ => ⟨S1x2048x64, .f32⟩
  | .local _ .vmem, ⟨6, _⟩ => ⟨S1x512x2048, .f32⟩
  | .local _ .vmem, ⟨7, _⟩ => ⟨S1x512x2048, .f32⟩
  | .local _ .vmem, ⟨8, _⟩ => ⟨S1x512x64, .f32⟩
  | .local _ .vmem, ⟨9, _⟩ => ⟨S1x512x64, .f32⟩
  | .local _ .vmem, ⟨10, _⟩ => ⟨S1x512x2048, .f32⟩
  | .local _ .vmem, ⟨11, _⟩ => ⟨S1x512x2048, .f32⟩
  | .local _ .vmem, ⟨12, _⟩ => ⟨S1x512x2048, .f32⟩
  | .local _ .vmem, ⟨13, _⟩ => ⟨S1x512x2048, .f32⟩
  | _, _ => ⟨S4x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4x8x2048x64_S32x2048x64 : S4x8x2048x64.ShapeCasts S32x2048x64
  shapeCasts_S4x8x64x2048_S32x64x2048 : S4x8x64x2048.ShapeCasts S32x64x2048
  shapeCasts_S4x8x2048x2048_S32x2048x2048 : S4x8x2048x2048.ShapeCasts S32x2048x2048
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  shapeCasts_S512x2048_S1x512x2048 : S512x2048.ShapeCasts S1x512x2048
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  shapeCasts_S32x2048x64_S4x8x2048x64 : S32x2048x64.ShapeCasts S4x8x2048x64
  shapeCasts_S32x2048x2048_S4x8x2048x2048 : S32x2048x2048.ShapeCasts S4x8x2048x2048
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x2048.size a ≤ S32x64x2048.size a
  hwx0_1 : ∀ i : grid0.Coords, EltTy.bits .f32 = 32 ∨ (Rect.block (s := S32x64x2048) S1x64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S32x2048x2048.size a
  hwx0_3 : ∀ i : grid0.Coords, EltTy.bits .f32 = 32 ∨ (Rect.block (s := S32x2048x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S32x2048x64.size a
  hwx0_4 : ∀ i : grid0.Coords, EltTy.bits .f32 = 32 ∨ (Rect.block (s := S32x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S32x2048x2048.size a
  hwx0_5 : ∀ i : grid0.Coords, EltTy.bits .f32 = 32 ∨ (Rect.block (s := S32x2048x2048) S1x512x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x2048.size a ≤ S32x2048x2048.size a
  hwx0_6 : ∀ i : grid0.Coords, EltTy.bits .f32 = 32 ∨ (Rect.block (s := S32x2048x2048) S1x512x2048.size (cc0_transform_6 i) (hinb0_6 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x512x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S1x512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x8x2048x64 : Shape := ⟨4, ![4, 8, 2048, 64]⟩
abbrev S4x8x64x2048 : Shape := ⟨4, ![4, 8, 64, 2048]⟩
abbrev S4x8x2048x2048 : Shape := ⟨4, ![4, 8, 2048, 2048]⟩
abbrev S_ : Shape := ⟨0, ![]⟩
abbrev S4x8x2048 : Shape := ⟨3, ![4, 8, 2048]⟩
abbrev S4x8x2048x1 : Shape := ⟨4, ![4, 8, 2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S4x8x2048x64, .f32⟩
  | .hbm, ⟨1, _⟩ => ⟨S4x8x64x2048, .f32⟩
  | .hbm, ⟨2, _⟩ => ⟨S4x8x2048x64, .f32⟩
  | .hbm, ⟨3, _⟩ => ⟨S4x8x2048x2048, .f32⟩
  | .hbm, ⟨4, _⟩ => ⟨S4x8x2048x2048, .f32⟩
  | .hbm, ⟨5, _⟩ => ⟨S_, .f32⟩
  | .hbm, ⟨6, _⟩ => ⟨S4x8x2048x2048, .f32⟩
  | .hbm, ⟨7, _⟩ => ⟨S4x8x2048x2048, .f32⟩
  | .hbm, ⟨8, _⟩ => ⟨S4x8x2048x2048, .f32⟩
  | .hbm, ⟨9, _⟩ => ⟨S_, .f32⟩
  | .hbm, ⟨10, _⟩ => ⟨S4x8x2048, .f32⟩
  | .hbm, ⟨11, _⟩ => ⟨S_, .f32⟩
  | .hbm, ⟨12, _⟩ => ⟨S4x8x2048, .f32⟩
  | .hbm, ⟨13, _⟩ => ⟨S4x8x2048, .f32⟩
  | .hbm, ⟨14, _⟩ => ⟨S4x8x2048x1, .f32⟩
  | .hbm, ⟨15, _⟩ => ⟨S4x8x2048x2048, .f32⟩
  | .hbm, ⟨16, _⟩ => ⟨S4x8x2048x2048, .f32⟩
  | .hbm, ⟨17, _⟩ => ⟨S4x8x2048x2048, .f32⟩
  | .hbm, ⟨18, _⟩ => ⟨S_, .f32⟩
  | .hbm, ⟨19, _⟩ => ⟨S4x8x2048, .f32⟩
  | .hbm, ⟨20, _⟩ => ⟨S4x8x2048x1, .f32⟩
  | .hbm, ⟨21, _⟩ => ⟨S4x8x2048x2048, .f32⟩
  | .hbm, ⟨22, _⟩ => ⟨S4x8x2048x2048, .f32⟩
  | .hbm, ⟨23, _⟩ => ⟨S4x8x2048x64, .f32⟩
  | _, _ => ⟨S4x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S_S4x8x2048x2048 : S_.BroadcastsInDim S4x8x2048x2048 (![] : Fin 0 → Fin S4x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  dot_S4x8x2048x64_S4x8x64x2048_S4x8x2048x2048_3_2_2_3_01_01_wf : DotDims.WF S4x8x2048x64 S4x8x64x2048 S4x8x2048x2048 [3] [2] [2] [3] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x8x2048x64_S4x8x64x2048_S4x8x2048x2048_3_2_2_3_01_01 : DotDims S4x8x2048x64 S4x8x64x2048 S4x8x2048x2048 where
  lhsContracting := [3]
  rhsContracting := [2]
  lhsNonContracting := [2]
  rhsNonContracting := [3]
  lhsBatch := [0, 1]
  rhsBatch := [0, 1]
  wf := dot_S4x8x2048x64_S4x8x64x2048_S4x8x2048x2048_3_2_2_3_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.KernelIndex.lean ====
/-
  The grid of the attention kernel and its index maps. The grid has 128 points; point t works on the (batch, head)
  slab number t / 4 and on the query rows (t % 4)·512 … (t % 4)·512 + 511 of that slab. The row-blocked windows
  (queries, biases and the three results) sit at block (t / 4, t % 4, 0) of their arrays, the whole-slab windows
  (keys, values) at block (t / 4, 0, 0).
-/
import proofs.«159788_j2164663517287_2_alg».proof.Proof.Gen.KernelIdeal.Frame
import Idealize.ShloMosaic.Lib.Pipeline.Value
import Idealize.ShloMosaic.Lib.ValueIdx

noncomputable section

namespace Cert.Attn

open Cert.KernelIdeal Cert.KernelIdeal.Gen Idealize.ShloMosaic Idealize.ShloMosaic.TcCoe Idealize.SL.Sem
open Idealize.ShloMosaic.ValueIdx

/-- A grid point is below 128. -/
theorem point_lt (t : Fin cfg0.N) : t.val < 128 := by
  have h := t.isLt
  have hN : cfg0.N = 128 := N_0
  omega

/-- The (batch, head) slab of a grid point. -/
def slabOf (t : Fin cfg0.N) : Fin 32 := ⟨t.val / 4, by have := point_lt t; omega⟩
/-- The array row of row r of a grid point's 512-row block. -/
def rowOf (t : Fin cfg0.N) (r : Fin 512) : Fin 2048 := ⟨(t.val % 4) * 512 + r.val, by have := r.isLt; omega⟩

/-- The printed index maps, decided over the grid: the row-blocked windows (queries, biases, the three results) sit at
    block (t / 4, t % 4, 0), the whole-slab windows (keys, values) at block (t / 4, 0, 0). -/
theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = t.val % 4 ∧ win0_3.index t (2 : Fin 3) = 0)
    ∧ (win0_4.index t (0 : Fin 3) = t.val / 4 ∧ win0_4.index t (1 : Fin 3) = t.val % 4 ∧ win0_4.index t (2 : Fin 3) = 0)
    ∧ (win0_5.index t (0 : Fin 3) = t.val / 4 ∧ win0_5.index t (1 : Fin 3) = t.val % 4 ∧ win0_5.index t (2 : Fin 3) = 0)
    ∧ (win0_6.index t (0 : Fin 3) = t.val / 4 ∧ win0_6.index t (1 : Fin 3) = t.val % 4 ∧ win0_6.index t (2 : Fin 3) = 0) :=
  (by decide +kernel : ∀ t : Fin grid0.N, _)

end Cert.Attn

end
-- ==== Proof.KernelBlocks.lean ====
/-
  Where the blocks of the attention kernel sit in their arrays. The grid has 128 points; point t works on the
  (batch, head) pair number t / 4 and on the query rows (t % 4)·512 … (t % 4)·512 + 511 of that pair. The query block,
  the bias block and the three result blocks are the 512 rows of slab t / 4 starting at row (t % 4)·512; the key and
  value blocks are the whole slab t / 4. So an entry (u, r, j) of such a block is the entry (t / 4, (t % 4)·512 + r, j)
  of its array (resp. (t / 4, r, j) for the keys and values), and every entry (s, l, j) of a result array lies in the
  block of point s·4 + l / 512: the blocks of each result tile its array.
-/
import proofs.«159788_j2164663517287_2_alg».proof.Proof.KernelIndex
import Idealize.ShloMosaic.Lib.Pipeline.Value
import Idealize.ShloMosaic.Lib.ValueIdx

noncomputable section

namespace Cert.Attn

open Cert.KernelIdeal Cert.KernelIdeal.Gen Idealize.ShloMosaic Idealize.ShloMosaic.TcCoe Idealize.SL.Sem
open Idealize.ShloMosaic.ValueIdx
open Idealize.ShloMosaic.Pipeline (Dat)

/-! ## Each window's index facts, one at a time -/

theorem idx_facts0 (t : Fin cfg0.N) : win0_0.index t (0 : Fin 3) = t.val / 4 ∧ win0_0.index t (1 : Fin 3) = t.val % 4 ∧ win0_0.index t (2 : Fin 3) = 0 := (idx_facts t).1
theorem idx_facts1 (t : Fin cfg0.N) : win0_1.index t (0 : Fin 3) = t.val / 4 ∧ win0_1.index t (1 : Fin 3) = 0 ∧ win0_1.index t (2 : Fin 3) = 0 := (idx_facts t).2.1
theorem idx_facts2 (t : Fin cfg0.N) : win0_2.index t (0 : Fin 3) = t.val / 4 ∧ win0_2.index t (1 : Fin 3) = 0 ∧ win0_2.index t (2 : Fin 3) = 0 := (idx_facts t).2.2.1
theorem idx_facts3 (t : Fin cfg0.N) : win0_3.index t (0 : Fin 3) = t.val / 4 ∧ win0_3.index t (1 : Fin 3) = t.val % 4 ∧ win0_3.index t (2 : Fin 3) = 0 := (idx_facts t).2.2.2.1
theorem idx_facts4 (t : Fin cfg0.N) : win0_4.index t (0 : Fin 3) = t.val / 4 ∧ win0_4.index t (1 : Fin 3) = t.val % 4 ∧ win0_4.index t (2 : Fin 3) = 0 := (idx_facts t).2.2.2.2.1
theorem idx_facts5 (t : Fin cfg0.N) : win0_5.index t (0 : Fin 3) = t.val / 4 ∧ win0_5.index t (1 : Fin 3) = t.val % 4 ∧ win0_5.index t (2 : Fin 3) = 0 := (idx_facts t).2.2.2.2.2.1
theorem idx_facts6 (t : Fin cfg0.N) : win0_6.index t (0 : Fin 3) = t.val / 4 ∧ win0_6.index t (1 : Fin 3) = t.val % 4 ∧ win0_6.index t (2 : Fin 3) = 0 := (idx_facts t).2.2.2.2.2.2

/-! ## A window's block read at a coordinate

Each lemma reads block t of a window, of ANY array G of the window's shape, at a coordinate of the block: the block's
entry sits at block index times block extent plus the coordinate inside the block, on every axis. -/

variable {F : FTy → Type} [FloatOps F]

/-- Window 0 (queries): entry (u, r, d) of block t is the array's entry (slab, row, d). -/
theorem read0_apply (G : S32x2048x64.Idx → Elt F .f32) (t : Fin cfg0.N) (u : Fin 1) (r : Fin 512) (j : Fin 64) :
    ((cfg0.win 0).blk t).view.read (Elt F) G (ix3 u r j) = G (ix3 (slabOf t) (rowOf t r) j) := by
  show G (((cfg0.win 0).blk t).view.emb (ix3 u r j)) = _
  refine congrArg G ?_
  obtain ⟨f0, f1, f2⟩ := idx_facts0 t
  funext a; apply Fin.ext
  match a with
  | ⟨0, _⟩ => show win0_0.index t (0 : Fin 3) * 1 + 1 * u.val = t.val / 4; omega
  | ⟨1, _⟩ => show win0_0.index t (1 : Fin 3) * 512 + 1 * r.val = (t.val % 4) * 512 + r.val; omega
  | ⟨2, _⟩ => show win0_0.index t (2 : Fin 3) * 64 + 1 * j.val = j.val; omega
/-- Window 1 (keys): block t is the whole slab: entry (u, d, m) is the array's entry (slab, d, m). -/
theorem read1_apply (G : S32x64x2048.Idx → Elt F .f32) (t : Fin cfg0.N) (u : Fin 1) (i : Fin 64) (j : Fin 2048) :
    ((cfg0.win 1).blk t).view.read (Elt F) G (ix3 u i j) = G (ix3 (slabOf t) i j) := by
  show G (((cfg0.win 1).blk t).view.emb (ix3 u i j)) = _
  refine congrArg G ?_
  obtain ⟨f0, f1, f2⟩ := idx_facts1 t
  funext a; apply Fin.ext
  match a with
  | ⟨0, _⟩ => show win0_1.index t (0 : Fin 3) * 1 + 1 * u.val = t.val / 4; omega
  | ⟨1, _⟩ => show win0_1.index t (1 : Fin 3) * 64 + 1 * i.val = i.val; omega
  | ⟨2, _⟩ => show win0_1.index t (2 : Fin 3) * 2048 + 1 * j.val = j.val; omega
/-- Window 2 (values): block t is the whole slab: entry (u, m, d) is the array's entry (slab, m, d). -/
theorem read2_apply (G : S32x2048x64.Idx → Elt F .f32) (t : Fin cfg0.N) (u : Fin 1) (i : Fin 2048) (j : Fin 64) :
    ((cfg0.win 2).blk t).view.read (Elt F) G (ix3 u i j) = G (ix3 (slabOf t) i j) := by
  show G (((cfg0.win 2).blk t).view.emb (ix3 u i j)) = _
  refine congrArg G ?_
  obtain ⟨f0, f1, f2⟩ := idx_facts2 t
  funext a; apply Fin.ext
  match a with
  | ⟨0, _⟩ => show win0_2.index t (0 : Fin 3) * 1 + 1 * u.val = t.val / 4; omega
  | ⟨1, _⟩ => show win0_2.index t (1 : Fin 3) * 2048 + 1 * i.val = i.val; omega
  | ⟨2, _⟩ => show win0_2.index t (2 : Fin 3) * 64 + 1 * j.val = j.val; omega
/-- Window 3 (biases): entry (u, r, m) of block t is the array's entry (slab, row, m). -/
theorem read3_apply (G : S32x2048x2048.Idx → Elt F .f32) (t : Fin cfg0.N) (u : Fin 1) (r : Fin 512) (j : Fin 2048) :
    ((cfg0.win 3).blk t).view.read (Elt F) G (ix3 u r j) = G (ix3 (slabOf t) (rowOf t r) j) := by
  show G (((cfg0.win 3).blk t).view.emb (ix3 u r j)) = _
  refine congrArg G ?_
  obtain ⟨f0, f1, f2⟩ := idx_facts3 t
  funext a; apply Fin.ext
  match a with
  | ⟨0, _⟩ => show win0_3.index t (0 : Fin 3) * 1 + 1 * u.val = t.val / 4; omega
  | ⟨1, _⟩ => show win0_3.index t (1 : Fin 3) * 512 + 1 * r.val = (t.val % 4) * 512 + r.val; omega
  | ⟨2, _⟩ => show win0_3.index t (2 : Fin 3) * 2048 + 1 * j.val = j.val; omega
/-- Window 4 (outputs): entry (u, r, d) of block t is the array's entry (slab, row, d). -/
theorem read4_apply (G : S32x2048x64.Idx → Elt F .f32) (t : Fin cfg0.N) (u : Fin 1) (r : Fin 512) (j : Fin 64) :
    ((cfg0.win 4).blk t).view.read (Elt F) G (ix3 u r j) = G (ix3 (slabOf t) (rowOf t r) j) := by
  show G (((cfg0.win 4).blk t).view.emb (ix3 u r j)) = _
  refine congrArg G ?_
  obtain ⟨f0, f1, f2⟩ := idx_facts4 t
  funext a; apply Fin.ext
  match a with
  | ⟨0, _⟩ => show win0_4.index t (0 : Fin 3) * 1 + 1 * u.val = t.val / 4; omega
  | ⟨1, _⟩ => show win0_4.index t (1 : Fin 3) * 512 + 1 * r.val = (t.val % 4) * 512 + r.val; omega
  | ⟨2, _⟩ => show win0_4.index t (2 : Fin 3) * 64 + 1 * j.val = j.val; omega
/-- Window 5 (weights): entry (u, r, m) of block t is the array's entry (slab, row, m). -/
theorem read5_apply (G : S32x2048x2048.Idx → Elt F .f32) (t : Fin cfg0.N) (u : Fin 1) (r : Fin 512) (j : Fin 2048) :
    ((cfg0.win 5).blk t).view.read (Elt F) G (ix3 u r j) = G (ix3 (slabOf t) (rowOf t r) j) := by
  show G (((cfg0.win 5).blk t).view.emb (ix3 u r j)) = _
  refine congrArg G ?_
  obtain ⟨f0, f1, f2⟩ := idx_facts5 t
  funext a; apply Fin.ext
  match a with
  | ⟨0, _⟩ => show win0_5.index t (0 : Fin 3) * 1 + 1 * u.val = t.val / 4; omega
  | ⟨1, _⟩ => show win0_5.index t (1 : Fin 3) * 512 + 1 * r.val = (t.val % 4) * 512 + r.val; omega
  | ⟨2, _⟩ => show win0_5.index t (2 : Fin 3) * 2048 + 1 * j.val = j.val; omega
/-- Window 6 (scores): entry (u, r, m) of block t is the array's entry (slab, row, m). -/
theorem read6_apply (G : S32x2048x2048.Idx → Elt F .f32) (t : Fin cfg0.N) (u : Fin 1) (r : Fin 512) (j : Fin 2048) :
    ((cfg0.win 6).blk t).view.read (Elt F) G (ix3 u r j) = G (ix3 (slabOf t) (rowOf t r) j) := by
  show G (((cfg0.win 6).blk t).view.emb (ix3 u r j)) = _
  refine congrArg G ?_
  obtain ⟨f0, f1, f2⟩ := idx_facts6 t
  funext a; apply Fin.ext
  match a with
  | ⟨0, _⟩ => show win0_6.index t (0 : Fin 3) * 1 + 1 * u.val = t.val / 4; omega
  | ⟨1, _⟩ => show win0_6.index t (1 : Fin 3) * 512 + 1 * r.val = (t.val % 4) * 512 + r.val; omega
  | ⟨2, _⟩ => show win0_6.index t (2 : Fin 3) * 2048 + 1 * j.val = j.val; omega

end Cert.Attn

end
-- ==== Proof.KernelCover.lean ====
/-
  The blocks of each result window tile its array. A result array is indexed by (slab s, row l, column j); grid
  point t holds the block of slab t / 4 and rows (t % 4)·512 … (t % 4)·512 + 511, all columns. So the index
  (s, l, j) lies in the block of the point 4·s + l / 512, and every point writes its block back.
-/
import proofs.«159788_j2164663517287_2_alg».proof.Proof.KernelIndex

noncomputable section

namespace Cert.Attn

open Cert.KernelIdeal Cert.KernelIdeal.Gen Idealize.ShloMosaic Idealize.ShloMosaic.TcCoe Idealize.SL.Sem
open Idealize.ShloMosaic.ValueIdx
open Idealize.ShloMosaic.Pipeline (Dat)

/-- An index of result array 0 is in point t's block iff each coordinate is in the block's range on its axis. -/
theorem mem_blk4 (t : Fin cfg0.N) (i : S32x2048x64.Idx) :
    i ∈ ((cfg0.win 4).blk t).view.set ↔ ∀ a : Fin 3, win0_4.index t a * S1x512x64.size a ≤ (i a).val ∧ (i a).val < win0_4.index t a * S1x512x64.size a + S1x512x64.size a := by
  show i ∈ ((View.whole main_v4_0).slice (win0_4.rect t)).set ↔ _
  rw [View.set_slice_whole, Rect.mem_set_unit]
  exact Iff.rfl

/-- Every index (s, l, j) of result array 0 lies in the block of the point 4·s + l / 512, which is written back. -/
theorem cover4 : ∀ i : S32x2048x64.Idx, ∃ t : Fin cfg0.N, (cfg0.win 4).flush t = true ∧ i ∈ ((cfg0.win 4).blk t).view.set := by
  intro i
  have hi0 : (i 0).val < 32 := (i 0).isLt
  have hi1 : (i 1).val < 2048 := (i 1).isLt
  have hi2 : (i 2).val < 64 := (i 2).isLt
  have hN : cfg0.N = 128 := N_0
  have ht : (i 0).val * 4 + (i 1).val / 512 < cfg0.N :=
    lt_of_lt_of_eq (by omega : (i 0).val * 4 + (i 1).val / 512 < 128) hN.symm
  obtain ⟨t, htv⟩ : ∃ t : Fin cfg0.N, t.val = (i 0).val * 4 + (i 1).val / 512 := ⟨⟨_, ht⟩, rfl⟩
  refine ⟨t, flush0_4 t, ?_⟩
  rw [mem_blk4]
  obtain ⟨e0, e1, e2⟩ := (idx_facts t).2.2.2.2.1
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-- An index of result array 1 is in point t's block iff each coordinate is in the block's range on its axis. -/
theorem mem_blk5 (t : Fin cfg0.N) (i : S32x2048x2048.Idx) :
    i ∈ ((cfg0.win 5).blk t).view.set ↔ ∀ a : Fin 3, win0_5.index t a * S1x512x2048.size a ≤ (i a).val ∧ (i a).val < win0_5.index t a * S1x512x2048.size a + S1x512x2048.size a := by
  show i ∈ ((View.whole main_v4_1).slice (win0_5.rect t)).set ↔ _
  rw [View.set_slice_whole, Rect.mem_set_unit]
  exact Iff.rfl

/-- Every index (s, l, j) of result array 1 lies in the block of the point 4·s + l / 512, which is written back. -/
theorem cover5 : ∀ i : S32x2048x2048.Idx, ∃ t : Fin cfg0.N, (cfg0.win 5).flush t = true ∧ i ∈ ((cfg0.win 5).blk t).view.set := by
  intro i
  have hi0 : (i 0).val < 32 := (i 0).isLt
  have hi1 : (i 1).val < 2048 := (i 1).isLt
  have hi2 : (i 2).val < 2048 := (i 2).isLt
  have hN : cfg0.N = 128 := N_0
  have ht : (i 0).val * 4 + (i 1).val / 512 < cfg0.N :=
    lt_of_lt_of_eq (by omega : (i 0).val * 4 + (i 1).val / 512 < 128) hN.symm
  obtain ⟨t, htv⟩ : ∃ t : Fin cfg0.N, t.val = (i 0).val * 4 + (i 1).val / 512 := ⟨⟨_, ht⟩, rfl⟩
  refine ⟨t, flush0_5 t, ?_⟩
  rw [mem_blk5]
  obtain ⟨e0, e1, e2⟩ := (idx_facts t).2.2.2.2.2.1
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

/-- An index of result array 2 is in point t's block iff each coordinate is in the block's range on its axis. -/
theorem mem_blk6 (t : Fin cfg0.N) (i : S32x2048x2048.Idx) :
    i ∈ ((cfg0.win 6).blk t).view.set ↔ ∀ a : Fin 3, win0_6.index t a * S1x512x2048.size a ≤ (i a).val ∧ (i a).val < win0_6.index t a * S1x512x2048.size a + S1x512x2048.size a := by
  show i ∈ ((View.whole main_v4_2).slice (win0_6.rect t)).set ↔ _
  rw [View.set_slice_whole, Rect.mem_set_unit]
  exact Iff.rfl

/-- Every index (s, l, j) of result array 2 lies in the block of the point 4·s + l / 512, which is written back. -/
theorem cover6 : ∀ i : S32x2048x2048.Idx, ∃ t : Fin cfg0.N, (cfg0.win 6).flush t = true ∧ i ∈ ((cfg0.win 6).blk t).view.set := by
  intro i
  have hi0 : (i 0).val < 32 := (i 0).isLt
  have hi1 : (i 1).val < 2048 := (i 1).isLt
  have hi2 : (i 2).val < 2048 := (i 2).isLt
  have hN : cfg0.N = 128 := N_0
  have ht : (i 0).val * 4 + (i 1).val / 512 < cfg0.N :=
    lt_of_lt_of_eq (by omega : (i 0).val * 4 + (i 1).val / 512 < 128) hN.symm
  obtain ⟨t, htv⟩ : ∃ t : Fin cfg0.N, t.val = (i 0).val * 4 + (i 1).val / 512 := ⟨⟨_, ht⟩, rfl⟩
  refine ⟨t, flush0_6 t, ?_⟩
  rw [mem_blk6]
  obtain ⟨e0, e1, e2⟩ := (idx_facts t).2.2.2.2.2.2
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 2048 ≤ (i 2).val ∧ (i 2).val < win0_6.index t (2 : Fin 3) * 2048 + 2048; omega

end Cert.Attn

end
-- ==== Proof.Spec.lean ====
/-
  Scaled dot-product attention with an additive score bias, one head at a time, written entry by entry on the
  extended reals. For batch b, head h, query row l:
    score  (l, m) = (sum over d of q (l, d) * k (d, m)) * (1/8) + bias (l, m),
    rowMax l      = the maximum over m of score (l, m), starting from minus infinity,
    expo   (l, m) = exp (score (l, m) - rowMax l),
    rowSum l      = the sum over m of expo (l, m),
    weight (l, m) = expo (l, m) * (1 / rowSum l)      -- the softmax of row l,
    outv   (l, d) = the sum over m of weight (l, m) * v (m, d).
  The key array is stored already transposed, [.., d, m]. The three results of the computation are outv, weight
  and score.
-/
import Idealize.ShloMosaic.PureOps.Ideal
import Idealize.ShloMosaic.Lib.ValueIdx

noncomputable section

open scoped BigOperators

namespace Cert.Attn

open Idealize.ShloMosaic Idealize.ShloMosaic.ValueIdx

/-- Queries and values, [batch, head, row, feature]. -/
abbrev Sq : Shape := ⟨4, ![4, 8, 2048, 64]⟩
/-- Keys, stored transposed: [batch, head, feature, column]. -/
abbrev Sk : Shape := ⟨4, ![4, 8, 64, 2048]⟩
/-- Scores, [batch, head, row, column]. -/
abbrev Sp : Shape := ⟨4, ![4, 8, 2048, 2048]⟩

/-- The scale 1/8 = 64^(-1/2), as the float word both programs carry. -/
def eighth : EReal := Ideal.ofBits .f32 0x3E000000#32
/-- Minus infinity, the starting value of a row maximum. -/
def negInf : EReal := Ideal.ofBits .f32 0xFF800000#32
/-- The float word of one. -/
def one : EReal := Ideal.ofBits .f32 0x3F800000#32

variable (q : Sq.Idx → EReal) (k : Sk.Idx → EReal) (v : Sq.Idx → EReal) (p : Sp.Idx → EReal)

/-- The biased, scaled score of query row l against key column m. -/
def score (b : Fin 4) (h : Fin 8) (l m : Fin 2048) : EReal :=
  (∑ d : Fin 64, q (ix4 b h l d) * k (ix4 b h d m)) * eighth + p (ix4 b h l m)

/-- The largest score of row l. -/
def rowMax (b : Fin 4) (h : Fin 8) (l : Fin 2048) : EReal :=
  (Finset.univ : Finset (Fin 2048)).fold max negInf (fun m => score q k p b h l m)

/-- The exponential of a score less its row's maximum. -/
def expo (b : Fin 4) (h : Fin 8) (l m : Fin 2048) : EReal :=
  Ideal.exp (score q k p b h l m - rowMax q k p b h l)

/-- The sum of a row's exponentials. -/
def rowSum (b : Fin 4) (h : Fin 8) (l : Fin 2048) : EReal :=
  ∑ m : Fin 2048, expo q k p b h l m

/-- The softmax weight: the exponential times the reciprocal of its row's sum. -/
def weight (b : Fin 4) (h : Fin 8) (l m : Fin 2048) : EReal :=
  expo q k p b h l m * Ideal.div one (rowSum q k p b h l)

/-- The attention output: the weighted sum of the value rows. -/
def outv (b : Fin 4) (h : Fin 8) (l : Fin 2048) (d : Fin 64) : EReal :=
  ∑ m : Fin 2048, weight q k p b h l m * v (ix4 b h m d)

/-- The three results as whole arrays. -/
def scoreArr : Sp.Idx → EReal := fun i => score q k p (i 0) (i 1) (i 2) (i 3)
def weightArr : Sp.Idx → EReal := fun i => weight q k p (i 0) (i 1) (i 2) (i 3)
def outArr : Sq.Idx → EReal := fun i => outv q k v p (i 0) (i 1) (i 2) (i 3)

end Cert.Attn

end
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.KernelBody.lean ====
/-
  One grid point of the attention kernel, entry by entry. A point holds a block of 512 query rows of one
  (batch, head) pair together with that pair's whole key matrix (64 x 2048, stored transposed), whole value
  matrix (2048 x 64) and the 512 x 2048 block of score biases. The arithmetic of one query row depends only on
  that row of the queries, on the keys, on that row of the biases and (for the output) on the values, so it is
  written here for one row, over plain functions of the coordinates:
    rscore m  = (sum over d of qrow d * kf d m) * (1/8) + prow m,
    rweight m = the softmax of the row of scores at m: exp (rscore m - max) times the reciprocal of the sum of those
                exponentials over the row,
    rout d    = the sum over m of rweight m * vf m d.
  The three values the body stores are then read at a coordinate: the score block at (r, m) is rscore of row r, the
  weight block is rweight of row r, the output block at (r, d) is rout of row r. The matrix products are sums over
  the contracted coordinate, the narrowing of the operands to a shorter float format changes nothing on the extended
  reals, the row maximum and row sum are a fold and a sum over the 2048 columns, and the per-row column [512, 1]
  spread along the row reads the row's value.
-/
import proofs.«159788_j2164663517287_2_alg».proof.Proof.Gen.KernelIdeal.Skeleton
import proofs.«159788_j2164663517287_2_alg».proof.Proof.Spec
import proofs.«159788_j2164663517287_2_alg».proof.Proof.LibColumns
import proofs.«159788_j2164663517287_2_alg».proof.Proof.LibMatmul
import Idealize.ShloMosaic.Lib.ValueLayout
import Idealize.ShloMosaic.Lib.Pipeline.Value
import Idealize.ShloMosaic.PureOps.Ideal.Laws

noncomputable section

open scoped BigOperators

namespace Cert.Attn

open Idealize.ShloMosaic Idealize.ShloMosaic.ValueIdx Cert.KernelIdeal Cert.KernelIdeal.Gen

/-! ## The softmax of one row of scores -/

section Softmax

variable (f : Fin 2048 → EReal)

/-- The row's largest score, from minus infinity. -/
def maxOf : EReal := (Finset.univ : Finset (Fin 2048)).fold max negInf f
/-- The exponential of a score less the row's maximum. -/
def expoOf (m : Fin 2048) : EReal := Ideal.exp (f m - maxOf f)
/-- The sum of the row's exponentials. -/
def sumOf : EReal := ∑ m : Fin 2048, expoOf f m
/-- The softmax weight at column m. -/
def weightOf (m : Fin 2048) : EReal := expoOf f m * Ideal.div one (sumOf f)

end Softmax

/-! ## One query row -/

section Row

variable (qrow : Fin 64 → EReal) (kf : Fin 64 → Fin 2048 → EReal) (prow : Fin 2048 → EReal)

/-- The score of the row against key column m. -/
def rscore (m : Fin 2048) : EReal := (∑ d : Fin 64, qrow d * kf d m) * eighth + prow m
/-- The row's softmax weight at column m. -/
def rweight (m : Fin 2048) : EReal := weightOf (rscore qrow kf prow) m
/-- The row of the output: the weighted sum of the value rows. -/
def rout (vf : Fin 2048 → Fin 64 → EReal) (d : Fin 64) : EReal := ∑ m : Fin 2048, rweight qrow kf prow m * vf m d

end Row

/-! ## The whole-array specification is the row computation of each row -/

section Arrays

variable (q : Sq.Idx → EReal) (k : Sk.Idx → EReal) (v : Sq.Idx → EReal) (p : Sp.Idx → EReal)
  (b : Fin 4) (h : Fin 8) (l : Fin 2048)

theorem score_eq_row (m : Fin 2048) : score q k p b h l m
    = rscore (fun d => q (ix4 b h l d)) (fun d m => k (ix4 b h d m)) (fun m => p (ix4 b h l m)) m := rfl
theorem weight_eq_row (m : Fin 2048) : weight q k p b h l m
    = rweight (fun d => q (ix4 b h l d)) (fun d m => k (ix4 b h d m)) (fun m => p (ix4 b h l m)) m := rfl
theorem outv_eq_row (d : Fin 64) : outv q k v p b h l d
    = rout (fun d => q (ix4 b h l d)) (fun d m => k (ix4 b h d m)) (fun m => p (ix4 b h l m)) (fun m d => v (ix4 b h m d)) d := rfl

end Arrays

/-! ## The body's stored values at a coordinate -/

section Body

variable (x0 : Vec Ideal S1x512x64 .f32) (x1 : Vec Ideal S1x64x2048 .f32) (x2 : Vec Ideal S1x2048x64 .f32)
  (x3 : Vec Ideal S1x512x2048 .f32)

/-- The score tile at (r, m). -/
theorem pay2_apply (r : Fin 512) (m : Fin 2048) :
    k0_pay2 (F := Ideal) x0 x1 x3 (ix2 r m)
      = rscore (fun d => x0 (ix3 (0 : Fin 1) r d)) (fun d m => x1 (ix3 (0 : Fin 1) d m)) (fun m => x3 (ix3 (0 : Fin 1) r m)) m := by
  unfold k0_pay2 rscore
  refine congrArg₂ (· + ·) (congrArg₂ (· * ·) ?_ ?_) ?_
  · refine (matmul_zero_ix2 _ rfl rfl rfl rfl rfl rfl none _ _ r m).trans ?_
    refine Finset.sum_congr rfl fun d _ => ?_
    exact congrArg₂ (· * ·) (shapeCast_1ab_ab_apply x0 _ r d) (shapeCast_1ab_ab_apply x1 _ d m)
  · rfl
  · exact shapeCast_1ab_ab_apply x3 _ r m

/-- The score block as stored, [1, 512, 2048], at (u, r, m). -/
theorem pay3_apply (u : Fin 1) (r : Fin 512) (m : Fin 2048) :
    k0_pay3 (F := Ideal) x0 x1 x3 (ix3 u r m)
      = rscore (fun d => x0 (ix3 (0 : Fin 1) r d)) (fun d m => x1 (ix3 (0 : Fin 1) d m)) (fun m => x3 (ix3 (0 : Fin 1) r m)) m := by
  unfold k0_pay3
  exact (shapeCast_ab_1ab_apply (k0_pay2 (F := Ideal) x0 x1 x3) _ u r m).trans (pay2_apply x0 x1 x3 r m)

/-- The softmax of a 512 x 2048 tile of scores as the body computes it: the row maximum, the exponentials, the row
    sum, its reciprocal spread along the row, the product. -/
def softmaxTile (s : FVec Ideal S512x2048 .f32) : FVec Ideal S512x2048 .f32 :=
  have v17 : FVec Ideal S512 .f32 := multiReduction .maximumf [1] S512 s 0xFF800000#32 reduces_S512x2048_S512 (.inl rfl) rfl
  have v18 : FVec Ideal S512x1 .f32 := shapeCast S512x1 v17 shapeCasts_S512_S512x1
  have v19 : FVec Ideal S512x2048 .f32 := broadcastTo S512x2048 v18 broadcasts_S512x1_S512x2048
  have v20 : FVec Ideal S512x2048 .f32 := subf s v19
  have v21 : FVec Ideal S512x2048 .f32 := exp v20
  have v22 : FVec Ideal S512 .f32 := multiReduction .add [1] S512 v21 0x00000000#32 reduces_S512x2048_S512 (.inl rfl) rfl
  have v23 : FVec Ideal S512x1 .f32 := shapeCast S512x1 v22 shapeCasts_S512_S512x1
  have cst_17 : Ideal .f32 := Scalar.ofBits .f32 0x3F800000#32
  have v24 : FVec Ideal S512x1 .f32 := broadcast S512x1 cst_17
  have v25 : FVec Ideal S512x1 .f32 := divf v24 v23
  have v26 : FVec Ideal S512x2048 .f32 := broadcastTo S512x2048 v25 broadcasts_S512x1_S512x2048
  have v27 : FVec Ideal S512x2048 .f32 := mulf v21 v26
  v27

theorem pay4_eq : k0_pay4 (F := Ideal) x0 x1 x3 = softmaxTile (k0_pay2 (F := Ideal) x0 x1 x3) := rfl

/-- Row r of a tile, with column k inserted, is the entry (r, k). -/
theorem lift_row (r : Fin 512) (k : Fin 2048) :
    (reduces_S512x2048_S512 : S512x2048.Reduces [1] S512).lift (ix1 r) k = ix2 r k := by
  funext a; apply Fin.ext
  match a with
  | ⟨0, _⟩ => rfl
  | ⟨1, _⟩ => rfl

variable (s : FVec Ideal S512x2048 .f32)

/-- The tile's row maximum at row r. -/
theorem tile_max (r : Fin 512) :
    multiReduction .maximumf [1] S512 s 0xFF800000#32 reduces_S512x2048_S512 (.inl rfl) rfl (ix1 r)
      = maxOf (fun m => s (ix2 r m)) := by
  refine (Ideal.multiReduction_maximumf_single s 0xFF800000#32 reduces_S512x2048_S512 (.inl rfl) rfl (ix1 r)).trans ?_
  unfold maxOf
  refine congrArg (Finset.fold max negInf · Finset.univ) (funext fun k => ?_)
  exact congrArg s (lift_row r k)

/-- The exponentials of a tile at (r, m). -/
theorem tile_expo (r : Fin 512) (m : Fin 2048) :
    exp (subf s (broadcastTo S512x2048 (shapeCast S512x1
        (multiReduction .maximumf [1] S512 s 0xFF800000#32 reduces_S512x2048_S512 (.inl rfl) rfl) shapeCasts_S512_S512x1)
        broadcasts_S512x1_S512x2048)) (ix2 r m)
      = expoOf (fun m => s (ix2 r m)) m := by
  unfold expoOf
  show Ideal.exp (s (ix2 r m) - _) = _
  refine congrArg (fun z => Ideal.exp (s (ix2 r m) - z)) ?_
  exact (broadcastTo_column_apply _ shapeCasts_S512_S512x1 broadcasts_S512x1_S512x2048 r m).trans (tile_max s r)

/-- The softmax tile at (r, m). -/
theorem softmaxTile_apply (r : Fin 512) (m : Fin 2048) :
    softmaxTile s (ix2 r m) = weightOf (fun m => s (ix2 r m)) m := by
  unfold softmaxTile weightOf
  refine congrArg₂ (· * ·) (tile_expo s r m) ?_
  refine (broadcastTo_a1_ab_apply _ broadcasts_S512x1_S512x2048 r m).trans ?_
  show Ideal.div (Ideal.ofBits .f32 0x3F800000#32) _ = _
  refine congrArg (Ideal.div one) ?_
  refine (shapeCast_a_a1_apply _ shapeCasts_S512_S512x1 r 0).trans ?_
  refine (Ideal.multiReduction_add_single _ 0x00000000#32 reduces_S512x2048_S512 (.inl rfl) rfl (ix1 r)).trans ?_
  unfold sumOf
  refine Finset.sum_congr rfl fun k _ => ?_
  rw [lift_row r k]
  exact tile_expo s r k

/-- The weight tile at (r, m). -/
theorem pay4_apply (r : Fin 512) (m : Fin 2048) :
    k0_pay4 (F := Ideal) x0 x1 x3 (ix2 r m)
      = rweight (fun d => x0 (ix3 (0 : Fin 1) r d)) (fun d m => x1 (ix3 (0 : Fin 1) d m)) (fun m => x3 (ix3 (0 : Fin 1) r m)) m := by
  rw [pay4_eq]
  refine (softmaxTile_apply (k0_pay2 (F := Ideal) x0 x1 x3) r m).trans ?_
  unfold rweight
  exact congrArg (weightOf · m) (funext fun m => pay2_apply x0 x1 x3 r m)

/-- The weight block as stored, [1, 512, 2048], at (u, r, m). -/
theorem pay5_apply (u : Fin 1) (r : Fin 512) (m : Fin 2048) :
    k0_pay5 (F := Ideal) x0 x1 x3 (ix3 u r m)
      = rweight (fun d => x0 (ix3 (0 : Fin 1) r d)) (fun d m => x1 (ix3 (0 : Fin 1) d m)) (fun m => x3 (ix3 (0 : Fin 1) r m)) m := by
  unfold k0_pay5
  exact (shapeCast_ab_1ab_apply (k0_pay4 (F := Ideal) x0 x1 x3) _ u r m).trans (pay4_apply x0 x1 x3 r m)

/-- The output block as stored, [1, 512, 64], at (u, r, d): the weights of row r against column d of the values. -/
theorem pay1_apply (u : Fin 1) (r : Fin 512) (d : Fin 64) :
    k0_pay1 (F := Ideal) (k0_pay6 (F := Ideal) x0 x1 x3) (k0_pay7 (F := Ideal) x2) (ix3 u r d)
      = rout (fun d => x0 (ix3 (0 : Fin 1) r d)) (fun d m => x1 (ix3 (0 : Fin 1) d m)) (fun m => x3 (ix3 (0 : Fin 1) r m))
          (fun m d => x2 (ix3 (0 : Fin 1) m d)) d := by
  unfold k0_pay1 rout
  refine (shapeCast_ab_1ab_apply _ _ u r d).trans ?_
  refine (matmul_zero_ix2 _ rfl rfl rfl rfl rfl rfl none _ _ r d).trans ?_
  refine Finset.sum_congr rfl fun m _ => ?_
  refine congrArg₂ (· * ·) ?_ ?_
  · unfold k0_pay6
    exact pay4_apply x0 x1 x3 r m
  · unfold k0_pay7
    exact shapeCast_1ab_ab_apply x2 _ m d

end Body

end Cert.Attn

end
-- ==== Proof.Slab.lean ====
/-
  The attention computation on the arrays as the kernel sees them: the batch and head axes merged into one axis of
  32 slabs, so queries and values are [32, 2048, 64], keys [32, 64, 2048], biases and scores [32, 2048, 2048]. Entry
  (s, l, m) of the score array is the row computation of row l of slab s, and likewise the weights and the outputs.
-/
import proofs.«159788_j2164663517287_2_alg».proof.Proof.KernelBody

noncomputable section

namespace Cert.Attn

open Idealize.ShloMosaic Idealize.ShloMosaic.ValueIdx

/-- Queries and values with batch and head merged, [slab, row, feature]. -/
abbrev Sq3 : Shape := ⟨3, ![32, 2048, 64]⟩
/-- Keys with batch and head merged, [slab, feature, column]. -/
abbrev Sk3 : Shape := ⟨3, ![32, 64, 2048]⟩
/-- Biases and scores with batch and head merged, [slab, row, column]. -/
abbrev Sp3 : Shape := ⟨3, ![32, 2048, 2048]⟩

variable (Q : Sq3.Idx → EReal) (K : Sk3.Idx → EReal) (W : Sq3.Idx → EReal) (P : Sp3.Idx → EReal)

/-- The score of row l of slab s against key column m. -/
def slabScore (s : Fin 32) (l m : Fin 2048) : EReal :=
  rscore (fun d => Q (ix3 s l d)) (fun d m => K (ix3 s d m)) (fun m => P (ix3 s l m)) m
/-- The softmax weight of row l of slab s at column m. -/
def slabWeight (s : Fin 32) (l m : Fin 2048) : EReal :=
  rweight (fun d => Q (ix3 s l d)) (fun d m => K (ix3 s d m)) (fun m => P (ix3 s l m)) m
/-- The output of row l of slab s at feature d (W holds the values). -/
def slabOut (s : Fin 32) (l : Fin 2048) (d : Fin 64) : EReal :=
  rout (fun d => Q (ix3 s l d)) (fun d m => K (ix3 s d m)) (fun m => P (ix3 s l m)) (fun m d => W (ix3 s m d)) d

/-- The three results as whole arrays over the slabs. -/
def slabScoreArr : Sp3.Idx → EReal := fun i => slabScore Q K P (i 0) (i 1) (i 2)
def slabWeightArr : Sp3.Idx → EReal := fun i => slabWeight Q K P (i 0) (i 1) (i 2)
def slabOutArr : Sq3.Idx → EReal := fun i => slabOut Q K W P (i 0) (i 1) (i 2)

end Cert.Attn

end
-- ==== Proof.KernelValue.lean ====
/-
  What the attention kernel's run leaves in its three result arrays. At each grid point the body stores, into the
  point's block of each result, the row computation of the point's 512 query rows of its slab; read through the blocks'
  positions this is the block of ONE whole-array function per result — the per-slab scores, softmax weights and
  outputs of the arrays the region was entered with — and the blocks tile each result array, so after the last point
  each result array IS that function. The host then views each [32, …] result as [4, 8, …].
-/
import proofs.«159788_j2164663517287_2_alg».proof.Proof.KernelBlocks
import proofs.«159788_j2164663517287_2_alg».proof.Proof.KernelCover
import proofs.«159788_j2164663517287_2_alg».proof.Proof.Slab
import Idealize.ShloMosaic.Lib.StableHlo.Run

noncomputable section

namespace Cert.Attn

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-! ## The input blocks of a point -/

theorem blk0_apply (c : Dev nD) (t : Fin cfg0.N) (u : Fin 1) (r : Fin 512) (d : Fin 64) :
    iblk m c 0 t (ix3 u r d) = V m c main_v0 (ix3 (slabOf t) (rowOf t r) d) :=
  read0_apply (V m c main_v0) t u r d
theorem blk1_apply (c : Dev nD) (t : Fin cfg0.N) (u : Fin 1) (d : Fin 64) (j : Fin 2048) :
    iblk m c 1 t (ix3 u d j) = V m c main_v1 (ix3 (slabOf t) d j) :=
  read1_apply (V m c main_v1) t u d j
theorem blk2_apply (c : Dev nD) (t : Fin cfg0.N) (u : Fin 1) (j : Fin 2048) (d : Fin 64) :
    iblk m c 2 t (ix3 u j d) = V m c main_v2 (ix3 (slabOf t) j d) :=
  read2_apply (V m c main_v2) t u j d
theorem blk3_apply (c : Dev nD) (t : Fin cfg0.N) (u : Fin 1) (r : Fin 512) (j : Fin 2048) :
    iblk m c 3 t (ix3 u r j) = V m c main_v3 (ix3 (slabOf t) (rowOf t r) j) :=
  read3_apply (V m c main_v3) t u r j

/-! ## What a point writes back -/

/-- Point t writes back, to the score array, block t of the per-slab scores. -/
theorem flushed6_eq (c : Dev nD) (t : Fin cfg0.N) :
    (dats m 0 c).flushed 6 t
      = ((cfg0.win 6).blk t).view.read (Elt Ideal) (slabScoreArr (V m c main_v0) (V m c main_v1) (V m c main_v3)) := by
  show (cfg0.win 6).cut (grid0.coords t) ((dats m 0 c).after 6 t) = _
  rw [after0_6]
  unfold out0_6
  rw [View.canon_unit_zero hz3]
  simp only [View.ld_unit_zero (S := S1x512x64) hz3, View.ld_unit_zero (S := S1x64x2048) hz3,
    View.ld_unit_zero (S := S1x512x2048) hz3]
  refine funext fun (y : S1x512x2048.Idx) => ?_
  obtain ⟨u, r, j, rfl⟩ : ∃ (u : Fin 1) (r : Fin 512) (j : Fin 2048), y = ix3 u r j := ⟨y 0, y 1, y 2, eq_ix3 y⟩
  refine (pay3_apply (iblk m c 0 t) (iblk m c 1 t) (iblk m c 3 t) u r j).trans ?_
  rw [read6_apply]
  show _ = slabScore (V m c main_v0) (V m c main_v1) (V m c main_v3) (slabOf t) (rowOf t r) j
  unfold slabScore
  have e0 : (fun d => iblk m c 0 t (ix3 (0 : Fin 1) r d)) = fun d => V m c main_v0 (ix3 (slabOf t) (rowOf t r) d) :=
    funext fun d => blk0_apply m c t 0 r d
  have e1 : (fun d j => iblk m c 1 t (ix3 (0 : Fin 1) d j)) = fun d j => V m c main_v1 (ix3 (slabOf t) d j) :=
    funext fun d => funext fun j => blk1_apply m c t 0 d j
  have e3 : (fun j => iblk m c 3 t (ix3 (0 : Fin 1) r j)) = fun j => V m c main_v3 (ix3 (slabOf t) (rowOf t r) j) :=
    funext fun j => blk3_apply m c t 0 r j
  rw [e0, e1, e3]

/-- Point t writes back, to the weight array, block t of the per-slab softmax weights. -/
theorem flushed5_eq (c : Dev nD) (t : Fin cfg0.N) :
    (dats m 0 c).flushed 5 t
      = ((cfg0.win 5).blk t).view.read (Elt Ideal) (slabWeightArr (V m c main_v0) (V m c main_v1) (V m c main_v3)) := by
  show (cfg0.win 5).cut (grid0.coords t) ((dats m 0 c).after 5 t) = _
  rw [after0_5]
  unfold out0_5
  rw [View.canon_unit_zero hz3]
  simp only [View.ld_unit_zero (S := S1x512x64) hz3, View.ld_unit_zero (S := S1x64x2048) hz3,
    View.ld_unit_zero (S := S1x512x2048) hz3]
  refine funext fun (y : S1x512x2048.Idx) => ?_
  obtain ⟨u, r, j, rfl⟩ : ∃ (u : Fin 1) (r : Fin 512) (j : Fin 2048), y = ix3 u r j := ⟨y 0, y 1, y 2, eq_ix3 y⟩
  refine (pay5_apply (iblk m c 0 t) (iblk m c 1 t) (iblk m c 3 t) u r j).trans ?_
  rw [read5_apply]
  show _ = slabWeight (V m c main_v0) (V m c main_v1) (V m c main_v3) (slabOf t) (rowOf t r) j
  unfold slabWeight
  have e0 : (fun d => iblk m c 0 t (ix3 (0 : Fin 1) r d)) = fun d => V m c main_v0 (ix3 (slabOf t) (rowOf t r) d) :=
    funext fun d => blk0_apply m c t 0 r d
  have e1 : (fun d j => iblk m c 1 t (ix3 (0 : Fin 1) d j)) = fun d j => V m c main_v1 (ix3 (slabOf t) d j) :=
    funext fun d => funext fun j => blk1_apply m c t 0 d j
  have e3 : (fun j => iblk m c 3 t (ix3 (0 : Fin 1) r j)) = fun j => V m c main_v3 (ix3 (slabOf t) (rowOf t r) j) :=
    funext fun j => blk3_apply m c t 0 r j
  rw [e0, e1, e3]

/-- Point t writes back, to the output array, block t of the per-slab outputs. -/
theorem flushed4_eq (c : Dev nD) (t : Fin cfg0.N) :
    (dats m 0 c).flushed 4 t
      = ((cfg0.win 4).blk t).view.read (Elt Ideal)
          (slabOutArr (V m c main_v0) (V m c main_v1) (V m c main_v2) (V m c main_v3)) := by
  show (cfg0.win 4).cut (grid0.coords t) ((dats m 0 c).after 4 t) = _
  rw [after0_4]
  unfold out0_4
  rw [View.canon_unit_zero hz3]
  simp only [View.ld_unit_zero (S := S1x512x64) hz3, View.ld_unit_zero (S := S1x64x2048) hz3,
    View.ld_unit_zero (S := S1x2048x64) hz3, View.ld_unit_zero (S := S1x512x2048) hz3]
  refine funext fun (y : S1x512x64.Idx) => ?_
  obtain ⟨u, r, d, rfl⟩ : ∃ (u : Fin 1) (r : Fin 512) (d : Fin 64), y = ix3 u r d := ⟨y 0, y 1, y 2, eq_ix3 y⟩
  refine (pay1_apply (iblk m c 0 t) (iblk m c 1 t) (iblk m c 2 t) (iblk m c 3 t) u r d).trans ?_
  rw [read4_apply]
  show _ = slabOut (V m c main_v0) (V m c main_v1) (V m c main_v2) (V m c main_v3) (slabOf t) (rowOf t r) d
  unfold slabOut
  have e0 : (fun d => iblk m c 0 t (ix3 (0 : Fin 1) r d)) = fun d => V m c main_v0 (ix3 (slabOf t) (rowOf t r) d) :=
    funext fun d => blk0_apply m c t 0 r d
  have e1 : (fun d j => iblk m c 1 t (ix3 (0 : Fin 1) d j)) = fun d j => V m c main_v1 (ix3 (slabOf t) d j) :=
    funext fun d => funext fun j => blk1_apply m c t 0 d j
  have e3 : (fun j => iblk m c 3 t (ix3 (0 : Fin 1) r j)) = fun j => V m c main_v3 (ix3 (slabOf t) (rowOf t r) j) :=
    funext fun j => blk3_apply m c t 0 r j
  have e2 : (fun j d => iblk m c 2 t (ix3 (0 : Fin 1) j d)) = fun j d => V m c main_v2 (ix3 (slabOf t) j d) :=
    funext fun j => funext fun d => blk2_apply m c t 0 j d
  rw [e0, e1, e2, e3]

/-! ## The result arrays after the last point -/

/-- The blocks tile each result array, so each ends as the per-slab function of the arrays the region was entered with. -/
theorem final6 (c : Dev nD) :
    (dats m 0 c).arrAt 6 cfg0.N = slabScoreArr (V m c main_v0) (V m c main_v1) (V m c main_v3) :=
  (dats m 0 c).arrAt_eq_of_cover 6 _ (fun t _ => flushed6_eq m c t) cover6
theorem final5 (c : Dev nD) :
    (dats m 0 c).arrAt 5 cfg0.N = slabWeightArr (V m c main_v0) (V m c main_v1) (V m c main_v3) :=
  (dats m 0 c).arrAt_eq_of_cover 5 _ (fun t _ => flushed5_eq m c t) cover5
theorem final4 (c : Dev nD) :
    (dats m 0 c).arrAt 4 cfg0.N = slabOutArr (V m c main_v0) (V m c main_v1) (V m c main_v2) (V m c main_v3) :=
  (dats m 0 c).arrAt_eq_of_cover 4 _ (fun t _ => flushed4_eq m c t) cover4

/-! ## The host's views of the results -/

/-- After the region the host views the [32, 2048, 2048] score array as [4, 8, 2048, 2048]. -/
theorem tail_v7 (c : Dev nD) :
    Pipeline.afterTail₀ cfgs (dats m) 0 (V0 m) [hostOps1] c main_v7
      = shapeCast S4x8x2048x2048 ((dats m 0 c).arrAt 6 cfg0.N) shapeCasts_S32x2048x2048_S4x8x2048x2048 := by
  unfold Pipeline.afterTail₀
  show StableHlo.after hostOps1 _ (Proc.devRef .tc main_v7) = _
  after_results
  exact congrArg (fun A => shapeCast S4x8x2048x2048 A shapeCasts_S32x2048x2048_S4x8x2048x2048)
    (Pipeline.withArrays_arr spec0 launch0.win.arr_inj c _ _ 6)
/-- Likewise the weight array. -/
theorem tail_v6 (c : Dev nD) :
    Pipeline.afterTail₀ cfgs (dats m) 0 (V0 m) [hostOps1] c main_v6
      = shapeCast S4x8x2048x2048 ((dats m 0 c).arrAt 5 cfg0.N) shapeCasts_S32x2048x2048_S4x8x2048x2048 := by
  unfold Pipeline.afterTail₀
  show StableHlo.after hostOps1 _ (Proc.devRef .tc main_v6) = _
  after_results
  exact congrArg (fun A => shapeCast S4x8x2048x2048 A shapeCasts_S32x2048x2048_S4x8x2048x2048)
    (Pipeline.withArrays_arr spec0 launch0.win.arr_inj c _ _ 5)
/-- And the [32, 2048, 64] output array as [4, 8, 2048, 64]. -/
theorem tail_v5 (c : Dev nD) :
    Pipeline.afterTail₀ cfgs (dats m) 0 (V0 m) [hostOps1] c main_v5
      = shapeCast S4x8x2048x64 ((dats m 0 c).arrAt 4 cfg0.N) shapeCasts_S32x2048x64_S4x8x2048x64 := by
  unfold Pipeline.afterTail₀
  show StableHlo.after hostOps1 _ (Proc.devRef .tc main_v5) = _
  after_results
  exact congrArg (fun A => shapeCast S4x8x2048x64 A shapeCasts_S32x2048x64_S4x8x2048x64)
    (Pipeline.withArrays_arr spec0 launch0.win.arr_inj c _ _ 4)

/-! ## The run -/

/-- Every weakly fair execution of the kernel's program ends with each result at the host's view of the per-slab
    function of the arrays the region was entered with, and the arguments unchanged. -/
theorem run_slabs : θ_run defs (onTc (τ := τ) (main (F := Ideal))) ⟨m, fun _ => 0, ρ⟩ fun r => ∀ c : Dev nD,
      r.2.mem ((c.tc : Thread nD τ).loc main_v5)
          = shapeCast S4x8x2048x64 (slabOutArr (V m c main_v0) (V m c main_v1) (V m c main_v2) (V m c main_v3))
              shapeCasts_S32x2048x64_S4x8x2048x64
      ∧ r.2.mem ((c.tc : Thread nD τ).loc main_v6)
          = shapeCast S4x8x2048x2048 (slabWeightArr (V m c main_v0) (V m c main_v1) (V m c main_v3))
              shapeCasts_S32x2048x2048_S4x8x2048x2048
      ∧ r.2.mem ((c.tc : Thread nD τ).loc main_v7)
          = shapeCast S4x8x2048x2048 (slabScoreArr (V m c main_v0) (V m c main_v1) (V m c main_v3))
              shapeCasts_S32x2048x2048_S4x8x2048x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans
        ((tail_v5 m c).trans (congrArg (fun A => shapeCast S4x8x2048x64 A shapeCasts_S32x2048x64_S4x8x2048x64) (final4 m c))),
      ((h c).2 main_v6 (Pipeline.mem_restRefs_of main_v6 (by decide) (by decide))).trans
        ((tail_v6 m c).trans (congrArg (fun A => shapeCast S4x8x2048x2048 A shapeCasts_S32x2048x2048_S4x8x2048x2048) (final5 m c))),
      ((h c).2 main_v7 (Pipeline.mem_restRefs_of main_v7 (by decide) (by decide))).trans
        ((tail_v7 m c).trans (congrArg (fun A => shapeCast S4x8x2048x2048 A shapeCasts_S32x2048x2048_S4x8x2048x2048) (final6 m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Attn

end
-- ==== Proof.KernelEntry.lean ====
/-
  What the region finds in its four input arrays. Before the region each argument, an array of shape
  [4, 8, rows, columns], is reshaped to [32, rows, columns] (batch and head merged into one slab axis, the elements
  kept in row-major order); nothing else writes these arrays before the region is entered.
-/
import proofs.«159788_j2164663517287_2_alg».proof.Proof.Gen.KernelIdeal.Frame
import Idealize.ShloMosaic.Lib.StableHlo.Run

noncomputable section

namespace Cert.Attn

open Cert.KernelIdeal Cert.KernelIdeal.Gen Idealize.ShloMosaic Idealize.ShloMosaic.TcCoe Idealize.SL.Sem
open Idealize.ShloMosaic.Pipeline (Dat)

variable {F : FTy → Type} [FloatOps F] (m : (ℓ : Loc nD τ sig) → Buf (Elt F) ℓ)

/-- At the region's entry array 0 is argument 0 read at shape 32 × 2048 × 64 in row-major order. -/
theorem V_main_v0 (c : Dev nD) : (V m c main_v0 : S32x2048x64.Idx → Elt F .f32) = shapeCast S32x2048x64 (m ((c : Thread nD τ).loc main_arg0)) shapeCasts_S4x8x2048x64_S32x2048x64 := by
  show StableHlo.after hostOps0 (fun b => m (c, b)) (Proc.devRef .tc main_v0) = _
  after_results
  rfl

/-- At the region's entry array 1 is argument 1 read at shape 32 × 64 × 2048 in row-major order. -/
theorem V_main_v1 (c : Dev nD) : (V m c main_v1 : S32x64x2048.Idx → Elt F .f32) = shapeCast S32x64x2048 (m ((c : Thread nD τ).loc main_arg1)) shapeCasts_S4x8x64x2048_S32x64x2048 := by
  show StableHlo.after hostOps0 (fun b => m (c, b)) (Proc.devRef .tc main_v1) = _
  after_results
  rfl

/-- At the region's entry array 2 is argument 2 read at shape 32 × 2048 × 64 in row-major order. -/
theorem V_main_v2 (c : Dev nD) : (V m c main_v2 : S32x2048x64.Idx → Elt F .f32) = shapeCast S32x2048x64 (m ((c : Thread nD τ).loc main_arg2)) shapeCasts_S4x8x2048x64_S32x2048x64 := by
  show StableHlo.after hostOps0 (fun b => m (c, b)) (Proc.devRef .tc main_v2) = _
  after_results
  rfl

/-- At the region's entry array 3 is argument 3 read at shape 32 × 2048 × 2048 in row-major order. -/
theorem V_main_v3 (c : Dev nD) : (V m c main_v3 : S32x2048x2048.Idx → Elt F .f32) = shapeCast S32x2048x2048 (m ((c : Thread nD τ).loc main_arg3)) shapeCasts_S4x8x2048x2048_S32x2048x2048 := by
  show StableHlo.after hostOps0 (fun b => m (c, b)) (Proc.devRef .tc main_v3) = _
  after_results
  rfl

end Cert.Attn

end
-- ==== Proof.LibMergeLeading.lean ====
/-
  The two leading axes of a rank-4 array merged into one, and split again, read at coordinates, for any extents and
  element type. An array [A, B, L, D] viewed as [n, L, D] with n = A·B reads, at (p, l, d), the entry (b, h, l, d)
  whenever p = b·B + h; and an array [n, L, D] viewed as [A, B, L, D] reads, at (b, h, l, d), the entry (p, l, d) for
  the same p. Both views keep the row-major position, which is ((b·B + h)·L + l)·D + d on either side.
-/
import Idealize.ShloMosaic.Lib.ValueIdx
import Idealize.ShloMosaic.Lib.Pipeline.Value

namespace Cert.LibMergeLeading

open Idealize.ShloMosaic Idealize.ShloMosaic.ValueIdx

variable {α : Type}

/-- [A, B, L, D] viewed as [n, L, D]: the entry (p, l, d) is the entry (b, h, l, d) when p = b·B + h. -/
theorem shapeCast_merge01_apply {A B L D n : ℕ} (x : (⟨4, ![A, B, L, D]⟩ : Shape).Idx → α)
    (hc : (⟨4, ![A, B, L, D]⟩ : Shape).ShapeCasts ⟨3, ![n, L, D]⟩) (b : Fin A) (h : Fin B) (l : Fin L) (d : Fin D)
    (p : Fin n) (e : p.val = b.val * B + h.val) :
    shapeCast ⟨3, ![n, L, D]⟩ x hc (ix3 p l d) = x (ix4 b h l d) :=
  shapeCast_apply x hc _ _ (by
    rw [Shape.rowMajor_val_four, Shape.rowMajor_val_three]
    show ((b.val * B + h.val) * L + l.val) * D + d.val = (p.val * L + l.val) * D + d.val
    rw [e])

/-- [n, L, D] viewed as [A, B, L, D]: the entry (b, h, l, d) is the entry (p, l, d) when p = b·B + h. -/
theorem shapeCast_split01_apply {A B L D n : ℕ} (y : (⟨3, ![n, L, D]⟩ : Shape).Idx → α)
    (hc : (⟨3, ![n, L, D]⟩ : Shape).ShapeCasts ⟨4, ![A, B, L, D]⟩) (b : Fin A) (h : Fin B) (l : Fin L) (d : Fin D)
    (p : Fin n) (e : p.val = b.val * B + h.val) :
    shapeCast ⟨4, ![A, B, L, D]⟩ y hc (ix4 b h l d) = y (ix3 p l d) :=
  shapeCast_apply y hc _ _ (by
    rw [Shape.rowMajor_val_three, Shape.rowMajor_val_four]
    show (p.val * L + l.val) * D + d.val = ((b.val * B + h.val) * L + l.val) * D + d.val
    rw [e])

end Cert.LibMergeLeading
-- ==== Proof.SlabSpec.lean ====
/-
  The slab computation between the two reshapes is the specification. The kernel's arrays carry batch and head
  merged into one axis of 32 slabs, the slab of (b, h) being b * 8 + h. Merging the two leading axes keeps every
  entry: the merged queries at (b * 8 + h, l, d) are the queries at (b, h, l, d), and likewise the keys, the values
  and the biases. So the row computation of row l of slab b * 8 + h runs on the very row functions that the
  specification's entry (b, h, l, .) runs on, and splitting the leading axis of the results again puts the slab
  entry (b * 8 + h, l, m) at (b, h, l, m).
-/
import proofs.«159788_j2164663517287_2_alg».proof.Proof.Slab
import proofs.«159788_j2164663517287_2_alg».proof.Proof.LibMergeLeading

noncomputable section

namespace Cert.Attn

open Idealize.ShloMosaic Idealize.ShloMosaic.ValueIdx Cert.LibMergeLeading

/-- The slab that holds batch b, head h. -/
def pairSlab (b : Fin 4) (h : Fin 8) : Fin 32 := ⟨b.val * 8 + h.val, by have := b.isLt; have := h.isLt; omega⟩

theorem pairSlab_val (b : Fin 4) (h : Fin 8) : (pairSlab b h).val = b.val * 8 + h.val := rfl

section Merged

variable (q : Sq.Idx → EReal) (k : Sk.Idx → EReal) (v : Sq.Idx → EReal) (p : Sp.Idx → EReal)
  (h0 : Sq.ShapeCasts Sq3) (h1 : Sk.ShapeCasts Sk3) (h2 : Sq.ShapeCasts Sq3) (h3 : Sp.ShapeCasts Sp3)
  (b : Fin 4) (h : Fin 8)

/-- Row l of the merged queries (or values) in the slab of (b, h) is row l of (b, h). -/
theorem merged_q (x : Sq.Idx → EReal) (hc : Sq.ShapeCasts Sq3) (l : Fin 2048) :
    (fun d : Fin 64 => shapeCast Sq3 x hc (ix3 (pairSlab b h) l d)) = fun d => x (ix4 b h l d) :=
  funext fun d => shapeCast_merge01_apply x hc b h l d (pairSlab b h) (pairSlab_val b h)

/-- The merged keys in the slab of (b, h) are the keys of (b, h). -/
theorem merged_k :
    (fun (d : Fin 64) (m : Fin 2048) => shapeCast Sk3 k h1 (ix3 (pairSlab b h) d m)) = fun d m => k (ix4 b h d m) :=
  funext fun d => funext fun m => shapeCast_merge01_apply k h1 b h d m (pairSlab b h) (pairSlab_val b h)

/-- The merged values in the slab of (b, h) are the values of (b, h). -/
theorem merged_v :
    (fun (m : Fin 2048) (d : Fin 64) => shapeCast Sq3 v h2 (ix3 (pairSlab b h) m d)) = fun m d => v (ix4 b h m d) :=
  funext fun m => funext fun d => shapeCast_merge01_apply v h2 b h m d (pairSlab b h) (pairSlab_val b h)

/-- Row l of the merged biases in the slab of (b, h) is row l of (b, h). -/
theorem merged_p (l : Fin 2048) :
    (fun m : Fin 2048 => shapeCast Sp3 p h3 (ix3 (pairSlab b h) l m)) = fun m => p (ix4 b h l m) :=
  funext fun m => shapeCast_merge01_apply p h3 b h l m (pairSlab b h) (pairSlab_val b h)

/-- The slab score on the merged arrays is the specification's score. -/
theorem slabScore_merged (l m : Fin 2048) :
    slabScore (shapeCast Sq3 q h0) (shapeCast Sk3 k h1) (shapeCast Sp3 p h3) (pairSlab b h) l m = score q k p b h l m := by
  rw [score_eq_row]
  unfold slabScore
  rw [merged_q b h q h0 l, merged_k k h1 b h, merged_p p h3 b h l]

/-- The slab weight on the merged arrays is the specification's weight. -/
theorem slabWeight_merged (l m : Fin 2048) :
    slabWeight (shapeCast Sq3 q h0) (shapeCast Sk3 k h1) (shapeCast Sp3 p h3) (pairSlab b h) l m = weight q k p b h l m := by
  rw [weight_eq_row]
  unfold slabWeight
  rw [merged_q b h q h0 l, merged_k k h1 b h, merged_p p h3 b h l]

/-- The slab output on the merged arrays is the specification's output. -/
theorem slabOut_merged (l : Fin 2048) (d : Fin 64) :
    slabOut (shapeCast Sq3 q h0) (shapeCast Sk3 k h1) (shapeCast Sq3 v h2) (shapeCast Sp3 p h3) (pairSlab b h) l d
      = outv q k v p b h l d := by
  rw [outv_eq_row]
  unfold slabOut
  rw [merged_q b h q h0 l, merged_k k h1 b h, merged_p p h3 b h l, merged_v v h2 b h]

end Merged

/-- The slab scores, split back into batch and head, are the specification's scores. -/
theorem scoreArr_of_slabs (q : Sq.Idx → EReal) (k : Sk.Idx → EReal) (p : Sp.Idx → EReal) (h0 : Sq.ShapeCasts Sq3)
    (h1 : Sk.ShapeCasts Sk3) (h3 : Sp.ShapeCasts Sp3) (h6 : Sp3.ShapeCasts Sp) :
    shapeCast Sp (slabScoreArr (shapeCast Sq3 q h0) (shapeCast Sk3 k h1) (shapeCast Sp3 p h3)) h6 = scoreArr q k p := by
  funext i
  obtain ⟨b, h, l, m, rfl⟩ : ∃ b h l m, i = ix4 b h l m := ⟨i 0, i 1, i 2, i 3, eq_ix4 i⟩
  rw [shapeCast_split01_apply _ h6 b h l m (pairSlab b h) (pairSlab_val b h)]
  exact slabScore_merged q k p h0 h1 h3 b h l m

/-- The slab weights, split back into batch and head, are the specification's weights. -/
theorem weightArr_of_slabs (q : Sq.Idx → EReal) (k : Sk.Idx → EReal) (p : Sp.Idx → EReal) (h0 : Sq.ShapeCasts Sq3)
    (h1 : Sk.ShapeCasts Sk3) (h3 : Sp.ShapeCasts Sp3) (h6 : Sp3.ShapeCasts Sp) :
    shapeCast Sp (slabWeightArr (shapeCast Sq3 q h0) (shapeCast Sk3 k h1) (shapeCast Sp3 p h3)) h6 = weightArr q k p := by
  funext i
  obtain ⟨b, h, l, m, rfl⟩ : ∃ b h l m, i = ix4 b h l m := ⟨i 0, i 1, i 2, i 3, eq_ix4 i⟩
  rw [shapeCast_split01_apply _ h6 b h l m (pairSlab b h) (pairSlab_val b h)]
  exact slabWeight_merged q k p h0 h1 h3 b h l m

/-- The slab outputs, split back into batch and head, are the specification's outputs. -/
theorem outArr_of_slabs (q : Sq.Idx → EReal) (k : Sk.Idx → EReal) (v : Sq.Idx → EReal) (p : Sp.Idx → EReal)
    (h0 : Sq.ShapeCasts Sq3) (h1 : Sk.ShapeCasts Sk3) (h2 : Sq.ShapeCasts Sq3) (h3 : Sp.ShapeCasts Sp3)
    (h4 : Sq3.ShapeCasts Sq) :
    shapeCast Sq (slabOutArr (shapeCast Sq3 q h0) (shapeCast Sk3 k h1) (shapeCast Sq3 v h2) (shapeCast Sp3 p h3)) h4
      = outArr q k v p := by
  funext i
  obtain ⟨b, h, l, d, rfl⟩ : ∃ b h l d, i = ix4 b h l d := ⟨i 0, i 1, i 2, i 3, eq_ix4 i⟩
  rw [shapeCast_split01_apply _ h4 b h l d (pairSlab b h) (pairSlab_val b h)]
  exact slabOut_merged q k v p h0 h1 h2 h3 b h l d

end Cert.Attn

end
-- ==== Proof.KernelSpec.lean ====
/-
  The kernel's program computes the specification. The region is entered with the four arguments viewed with batch
  and head merged ([4, 8, …] as [32, …]); it leaves the per-slab outputs, weights and scores of those views; the host
  views them back as [4, 8, …]. Merging and splitting the two leading axes only renames the slab (b, h) as b·8 + h, so
  the three results are the specification's output, weight and score arrays of the arguments themselves.
-/
import proofs.«159788_j2164663517287_2_alg».proof.Proof.KernelValue
import proofs.«159788_j2164663517287_2_alg».proof.Proof.KernelEntry
import proofs.«159788_j2164663517287_2_alg».proof.Proof.SlabSpec

noncomputable section

namespace Cert.Attn

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- Every weakly fair execution of the kernel's program ends with its three results at the specification's output,
    weight and score arrays of the argument arrays, and the arguments unchanged. -/
theorem run_spec : θ_run defs (onTc (τ := τ) (main (F := Ideal))) ⟨m, fun _ => 0, ρ⟩ fun r => ∀ c : Dev nD,
      r.2.mem ((c.tc : Thread nD τ).loc main_v5)
          = outArr (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_v6)
          = weightArr (m ((c.tc : Thread nD τ).loc main_arg0)) (m ((c.tc : Thread nD τ).loc main_arg1))
              (m ((c.tc : Thread nD τ).loc main_arg3))
      ∧ r.2.mem ((c.tc : Thread nD τ).loc main_v7)
          = scoreArr (m ((c.tc : Thread nD τ).loc main_arg0)) (m ((c.tc : Thread nD τ).loc main_arg1))
              (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ?_) (run_slabs m ρ)
  obtain ⟨h5, h6, h7, hargs⟩ := h c
  have e0 := V_main_v0 m c
  have e1 := V_main_v1 m c
  have e2 := V_main_v2 m c
  have e3 := V_main_v3 m c
  refine ⟨h5.trans ?_, h6.trans ?_, h7.trans ?_, hargs⟩
  · rw [e0, e1, e2, e3]
    exact outArr_of_slabs _ _ _ _ _ _ _ _ _
  · rw [e0, e1, e3]
    exact weightArr_of_slabs _ _ _ _ _ _ _
  · rw [e0, e1, e3]
    exact scoreArr_of_slabs _ _ _ _ _ _ _

end Cert.Attn

end
-- ==== Proof.Consts.lean ====
/-
  The float words of the attention computation as extended reals — one is 1, the scale is the real 1/8, the
  starting value of a row maximum is minus infinity — and the two one-line laws that rest on them: a maximum
  against minus infinity is the other operand, and a quotient by a nonzero divisor is the product with the
  divisor's reciprocal (the reciprocal taken as a quotient of one).
-/
import proofs.«159788_j2164663517287_2_alg».proof.Proof.Spec

noncomputable section

namespace Cert.Attn

open Idealize.ShloMosaic

/-- The word of 1.0 denotes 1. -/
theorem one_eq : one = 1 := by
  unfold one; simp [Ideal.ofBits, Ideal.ieee, -EReal.coe_mul]; norm_num

/-- The word 0xFF800000 denotes minus infinity. -/
theorem negInf_eq : negInf = ⊥ := by
  unfold negInf; simp [Ideal.ofBits, Ideal.ieee]

/-- The word of 0.125 denotes the real 1/8. -/
theorem eighth_eq : eighth = ((1 / 8 : ℝ) : EReal) := by
  unfold eighth; simp [Ideal.ofBits, Ideal.ieee, -EReal.coe_mul]; norm_num

/-- Minus infinity is neutral for the maximum. -/
theorem max_negInf (x : EReal) : max negInf x = x := by
  rw [negInf_eq]; exact max_eq_right bot_le

/-- Off a zero divisor, dividing is multiplying by the reciprocal. -/
theorem div_eq_mul_recip (e l : EReal) (hl : l ≠ 0) : Ideal.div e l = e * Ideal.div one l := by
  rw [one_eq]; unfold Ideal.div; rw [if_neg hl, if_neg hl, one_mul]

end Cert.Attn

end
-- ==== Proof.RefValue.lean ====
/-
  The reference computation read entry by entry. Its stages are a contraction over the feature axis, a scaling by
  1/8, the addition of the bias (the scores), a row maximum started from minus infinity and then taken once more
  against minus infinity, the exponential of the score less that maximum, the row sum of the exponentials started
  from zero, the quotient of each exponential by its row's sum (the weights), and the contraction of the weights
  with the values (the output). Each stage at the index (b, h, l, m) is the corresponding entry of the
  specification; three small laws close the gaps: a maximum against minus infinity is the other operand, a sum
  started from zero is the sum, and a quotient by a nonzero divisor is the product with the reciprocal.
-/
import proofs.«159788_j2164663517287_2_alg».proof.Proof.Gen.ReferenceIdeal.Read
import proofs.«159788_j2164663517287_2_alg».proof.Proof.Consts

noncomputable section

open scoped BigOperators

namespace Cert.Attn.Ref

open Cert.ReferenceIdeal Cert.ReferenceIdeal.Gen Cert.ReferenceIdeal.Read Idealize.ShloMosaic Idealize.ShloMosaic.ValueIdx

variable (x0 : (⟨S4x8x2048x64, .f32⟩ : BufTy).Contents (Elt Ideal))
  (x1 : (⟨S4x8x64x2048, .f32⟩ : BufTy).Contents (Elt Ideal))
  (x2 : (⟨S4x8x2048x64, .f32⟩ : BufTy).Contents (Elt Ideal))
  (x3 : (⟨S4x8x2048x2048, .f32⟩ : BufTy).Contents (Elt Ideal))

/-- The third stage at (b, h, l, m) is the biased, scaled score. -/
theorem v3_at (b : Fin 4) (h : Fin 8) (l m : Fin 2048) :
    val_main_v3 (F := Ideal) x0 x1 x3 (ix4 b h l m) = Cert.Attn.score x0 x1 x3 b h l m := by
  have hl : ∀ k : Fin 64, lidx_main_v0 (ix4 b h l m) k = ix4 b h l k := fun k => funext fun a => Fin.ext (by
    match a with | ⟨0, _⟩ => rfl | ⟨1, _⟩ => rfl | ⟨2, _⟩ => rfl | ⟨3, _⟩ => rfl)
  have hr : ∀ k : Fin 64, ridx_main_v0 (ix4 b h l m) k = ix4 b h k m := fun k => funext fun a => Fin.ext (by
    match a with | ⟨0, _⟩ => rfl | ⟨1, _⟩ => rfl | ⟨2, _⟩ => rfl | ⟨3, _⟩ => rfl)
  rw [val_main_v3_apply, val_main_v2_apply, val_main_v0_apply, val_main_v1_apply, val_main_cst_apply]
  simp only [Ideal.addf_def, Ideal.mulf_def, Ideal.ofBits_def, hl, hr]
  rfl

/-- The row maximum the reference folds, at (b, h, l): the fold of the maximum from minus infinity over the scores of
    the row. The index with the column m inserted on the last axis is (b, h, l, m). -/
theorem v4_at (b : Fin 4) (h : Fin 8) (l : Fin 2048) :
    val_main_v4 (F := Ideal) x0 x1 x3 (ix3 b h l) = Cert.Attn.rowMax x0 x1 x3 b h l := by
  have hr : S4x8x2048x2048.Reduces [3] S4x8x2048 := by decide
  unfold val_main_v4
  rw [Host.reduce_eq_fold_single FloatOps.maximumf _ _ reducesTo_S4x8x2048x2048_S4x8x2048_d3 hr h_S_]
  have hf : (val_main_v3 (F := Ideal) x0 x1 x3 ∘ hr.lift (ix3 b h l)) = fun m : Fin 2048 => Cert.Attn.score x0 x1 x3 b h l m :=
    funext fun m => by
      show val_main_v3 (F := Ideal) x0 x1 x3 (hr.lift (ix3 b h l) m) = _
      rw [show hr.lift (ix3 b h l) m = ix4 b h l m from funext fun a => Fin.ext (by
        match a with | ⟨0, _⟩ => rfl | ⟨1, _⟩ => rfl | ⟨2, _⟩ => rfl | ⟨3, _⟩ => rfl)]
      exact v3_at x0 x1 x3 b h l m
  rw [hf]
  rfl

/-- The maximum the reference subtracts, at (b, h, l): it takes the fold once more against minus infinity, which
    changes nothing. -/
theorem v6_at (b : Fin 4) (h : Fin 8) (l : Fin 2048) :
    val_main_v6 (F := Ideal) x0 x1 x3 (ix3 b h l) = Cert.Attn.rowMax x0 x1 x3 b h l := by
  rw [val_main_v6_apply, val_main_v5_apply, val_main_cst_1_apply, v4_at]
  simp only [Ideal.maximumf_def, Ideal.ofBits_def]
  exact Cert.Attn.max_negInf _

/-- The exponentials, at (b, h, l, m). -/
theorem v10_at (b : Fin 4) (h : Fin 8) (l m : Fin 2048) :
    val_main_v10 (F := Ideal) x0 x1 x3 (ix4 b h l m) = Cert.Attn.expo x0 x1 x3 b h l m := by
  have hi : idx_main_v7 (idx_main_v8 (ix4 b h l m)) = ix3 b h l := funext fun a => Fin.ext (by
    match a with | ⟨0, _⟩ => rfl | ⟨1, _⟩ => rfl | ⟨2, _⟩ => rfl)
  rw [val_main_v10_apply, val_main_v9_apply, val_main_v8_apply, val_main_v7_apply, hi, v6_at, v3_at]
  simp only [Ideal.hostUnary_exp_def, Ideal.subf_def]
  rfl

/-- The row sums, at (b, h, l): the reference starts its sum from the zero word. -/
theorem v11_at (b : Fin 4) (h : Fin 8) (l : Fin 2048) :
    val_main_v11 (F := Ideal) x0 x1 x3 (ix3 b h l) = Cert.Attn.rowSum x0 x1 x3 b h l := by
  have hi : ∀ k : Fin 2048, idx_main_v11 (ix3 b h l) k = ix4 b h l k := fun k => funext fun a => Fin.ext (by
    match a with | ⟨0, _⟩ => rfl | ⟨1, _⟩ => rfl | ⟨2, _⟩ => rfl | ⟨3, _⟩ => rfl)
  rw [val_main_v11_apply, val_main_cst_2_apply]
  simp only [Ideal.ofBits_def, Ideal.ofBits_zero_f32, zero_add, hi, v10_at]
  rfl

/-- The weights, at (b, h, l, m): the quotient by the row sum is the product with its reciprocal, the row sum being
    nonzero. -/
theorem v14_at (hsum : ∀ (b : Fin 4) (h : Fin 8) (l : Fin 2048), Cert.Attn.rowSum x0 x1 x3 b h l ≠ 0)
    (b : Fin 4) (h : Fin 8) (l m : Fin 2048) :
    val_main_v14 (F := Ideal) x0 x1 x3 (ix4 b h l m) = Cert.Attn.weight x0 x1 x3 b h l m := by
  have hi : idx_main_v12 (idx_main_v13 (ix4 b h l m)) = ix3 b h l := funext fun a => Fin.ext (by
    match a with | ⟨0, _⟩ => rfl | ⟨1, _⟩ => rfl | ⟨2, _⟩ => rfl)
  rw [val_main_v14_apply, val_main_v13_apply, val_main_v12_apply, hi, v11_at, v10_at]
  simp only [Ideal.hostDivf_def]
  exact Cert.Attn.div_eq_mul_recip _ _ (hsum b h l)

/-- The output, at (b, h, l, d). -/
theorem v15_at (hsum : ∀ (b : Fin 4) (h : Fin 8) (l : Fin 2048), Cert.Attn.rowSum x0 x1 x3 b h l ≠ 0)
    (b : Fin 4) (h : Fin 8) (l : Fin 2048) (d : Fin 64) :
    val_main_v15 (F := Ideal) x0 x1 x2 x3 (ix4 b h l d) = Cert.Attn.outv x0 x1 x2 x3 b h l d := by
  have hl : ∀ k : Fin 2048, lidx_main_v15 (ix4 b h l d) k = ix4 b h l k := fun k => funext fun a => Fin.ext (by
    match a with | ⟨0, _⟩ => rfl | ⟨1, _⟩ => rfl | ⟨2, _⟩ => rfl | ⟨3, _⟩ => rfl)
  have hr : ∀ k : Fin 2048, ridx_main_v15 (ix4 b h l d) k = ix4 b h k d := fun k => funext fun a => Fin.ext (by
    match a with | ⟨0, _⟩ => rfl | ⟨1, _⟩ => rfl | ⟨2, _⟩ => rfl | ⟨3, _⟩ => rfl)
  rw [val_main_v15_apply]
  simp only [hl, hr, v14_at x0 x1 x3 hsum]
  rfl

/-- The scores the reference returns are the specification's. -/
theorem scoreArr_eq : val_main_v3 (F := Ideal) x0 x1 x3 = Cert.Attn.scoreArr x0 x1 x3 :=
  funext fun i => (congrArg (val_main_v3 (F := Ideal) x0 x1 x3) (eq_ix4 i)).trans (v3_at x0 x1 x3 (i 0) (i 1) (i 2) (i 3))

/-- The weights the reference returns are the specification's, no row sum being zero. -/
theorem weightArr_eq (hsum : ∀ (b : Fin 4) (h : Fin 8) (l : Fin 2048), Cert.Attn.rowSum x0 x1 x3 b h l ≠ 0) :
    val_main_v14 (F := Ideal) x0 x1 x3 = Cert.Attn.weightArr x0 x1 x3 :=
  funext fun i => (congrArg (val_main_v14 (F := Ideal) x0 x1 x3) (eq_ix4 i)).trans
    (v14_at x0 x1 x3 hsum (i 0) (i 1) (i 2) (i 3))

/-- The output the reference returns is the specification's, no row sum being zero. -/
theorem outArr_eq (hsum : ∀ (b : Fin 4) (h : Fin 8) (l : Fin 2048), Cert.Attn.rowSum x0 x1 x3 b h l ≠ 0) :
    val_main_v15 (F := Ideal) x0 x1 x2 x3 = Cert.Attn.outArr x0 x1 x2 x3 :=
  funext fun i => (congrArg (val_main_v15 (F := Ideal) x0 x1 x2 x3) (eq_ix4 i)).trans
    (v15_at x0 x1 x2 x3 hsum (i 0) (i 1) (i 2) (i 3))

end Cert.Attn.Ref

end
-- ==== Proof.SoftmaxLaws.lean ====
/-
  Real-number facts about one softmax row. When the queries, keys and bias hold only real numbers, every
  score is a real number; the maximum of a nonempty finite row of reals is a real; so each exponent
  score - rowMax is real, its exponential is a positive real, and the sum of a nonempty finite row of
  positive reals is a positive real, in particular not zero.
-/
import proofs.«159788_j2164663517287_2_alg».proof.Proof.Consts
import Mathlib.Data.Finset.Fold
import Mathlib.Data.EReal.Operations
import Mathlib.Analysis.SpecialFunctions.Exp

noncomputable section

open scoped BigOperators

namespace Cert.Attn

open Idealize.ShloMosaic Idealize.ShloMosaic.ValueIdx

/-- An array all of whose entries are real numbers. -/
def AllReal {s : Idealize.ShloMosaic.Shape} (x : s.Idx → EReal) : Prop := ∀ i, ∃ r : ℝ, x i = (r : EReal)

/-- A finite sum of reals, read in the extended reals, is the real sum. -/
theorem sum_coe {ι : Type*} (s : Finset ι) (f : ι → ℝ) :
    ∑ i ∈ s, ((f i : ℝ) : EReal) = ((∑ i ∈ s, f i : ℝ) : EReal) := by
  classical
  refine Finset.induction_on s ?_ ?_
  · simp
  · intro a s ha ih
    rw [Finset.sum_insert ha, Finset.sum_insert ha, ih, EReal.coe_add]

/-- A finite sum of extended reals that are all real is real. -/
theorem sum_real {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [← sum_coe]; exact Finset.sum_congr rfl (fun i _ => hg i)⟩

/-- The maximum, started from minus infinity, of a nonempty finite family of reals is real: it is at least
one member, so not minus infinity, and every member is below plus infinity. -/
theorem fold_max_real {ι : Type*} [Fintype ι] [Nonempty ι] (s : ι → EReal)
    (hs : ∀ i, ∃ r : ℝ, s i = (r : EReal)) :
    ∃ r : ℝ, (Finset.univ : Finset ι).fold max ⊥ s = (r : EReal) := by
  have h1 : (Finset.univ : Finset ι).fold max ⊥ s ≠ ⊥ := by
    obtain ⟨i⟩ := ‹Nonempty ι›
    obtain ⟨r, hr⟩ := hs i
    have hle : s i ≤ (Finset.univ : Finset ι).fold max ⊥ s :=
      (Finset.le_fold_max _).mpr (Or.inr ⟨i, Finset.mem_univ i, le_rfl⟩)
    intro h0
    rw [h0, hr] at hle
    exact absurd hle (not_le.mpr (EReal.bot_lt_coe r))
  have h2 : (Finset.univ : Finset ι).fold max ⊥ s ≠ ⊤ := by
    apply ne_of_lt
    rw [Finset.fold_max_lt]
    refine ⟨bot_lt_top, fun i _ => ?_⟩
    obtain ⟨r, hr⟩ := hs i
    rw [hr]; exact EReal.coe_lt_top r
  exact ⟨_, (EReal.coe_toReal h2 h1).symm⟩

/-- The sum over a nonempty finite family of reals of exp (member - maximum) is not zero: each term is a
positive real. -/
theorem sum_exp_sub_max_ne_zero {ι : Type*} [Fintype ι] [Nonempty ι] (s : ι → EReal)
    (hs : ∀ i, ∃ r : ℝ, s i = (r : EReal)) :
    ∑ i, Ideal.exp (s i - (Finset.univ : Finset ι).fold max ⊥ s) ≠ 0 := by
  obtain ⟨M, hM⟩ := fold_max_real s hs
  choose g hg using hs
  have hterm : ∀ i, Ideal.exp (s i - (Finset.univ : Finset ι).fold max ⊥ s)
      = ((Real.exp (g i - M) : ℝ) : EReal) := by
    intro i
    rw [hM, hg i, ← EReal.coe_sub]
    rfl
  rw [Finset.sum_congr rfl (fun i _ => hterm i), sum_coe]
  have hpos : 0 < ∑ i, Real.exp (g i - M) :=
    Finset.sum_pos (fun i _ => Real.exp_pos _) Finset.univ_nonempty
  exact_mod_cast hpos.ne'

/-- With real queries, keys and bias every score is real. -/
theorem score_real (q : Sq.Idx → EReal) (k : Sk.Idx → EReal) (p : Sp.Idx → EReal) (hq : AllReal q)
    (hk : AllReal k) (hp : AllReal p) (b : Fin 4) (h : Fin 8) (l m : Fin 2048) :
    ∃ r : ℝ, score q k p b h l m = (r : EReal) := by
  have hS : ∃ S : ℝ, (∑ d : Fin 64, q (ix4 b h l d) * k (ix4 b h d m)) = (S : EReal) := by
    apply sum_real
    intro d
    obtain ⟨a, ha⟩ := hq (ix4 b h l d)
    obtain ⟨c, hc⟩ := hk (ix4 b h d m)
    exact ⟨a * c, by rw [ha, hc, EReal.coe_mul]⟩
  obtain ⟨S, hS⟩ := hS
  obtain ⟨t, ht⟩ := hp (ix4 b h l m)
  refine ⟨S * (1 / 8) + t, ?_⟩
  unfold score
  rw [hS, ht, eighth_eq, EReal.coe_add, EReal.coe_mul]

/-- With real queries, keys and bias the sum of a row's exponentials is not zero. -/
theorem rowSum_ne_zero (q : Sq.Idx → EReal) (k : Sk.Idx → EReal) (p : Sp.Idx → EReal) (hq : AllReal q)
    (hk : AllReal k) (hp : AllReal p) (b : Fin 4) (h : Fin 8) (l : Fin 2048) :
    rowSum q k p b h l ≠ 0 := by
  unfold rowSum expo rowMax
  rw [negInf_eq]
  exact sum_exp_sub_max_ne_zero (fun m => score q k p b h l m)
    (fun m => score_real q k p hq hk hp b h l m)

end Cert.Attn

end
-- ==== Proof.Finite.lean ====
/-
  The inputs' finiteness, read off the precondition. The precondition is the conjunction, over the four
  input arrays, of "every entry x has |x| < +infinity". On the extended reals |x| = max x (-x), and the
  float word 0x7F800000 denotes plus infinity; max x (-x) < +infinity excludes both infinities, so x is a
  real number.
-/
import proofs.«159788_j2164663517287_2_alg».proof.Defs
import proofs.«159788_j2164663517287_2_alg».proof.Proof.Gen.Pre_finite_inputs
import proofs.«159788_j2164663517287_2_alg».proof.Proof.SoftmaxLaws
import Idealize.ShloMosaic.Lib.ReduceAll

noncomputable section

namespace Cert.Attn

open Idealize.ShloMosaic

/-- The shape of a single number has one index. -/
instance subsingleton_scalar_idx : Subsingleton Cert.Pre_finite_inputs.S_.Idx :=
  ⟨fun a b => funext fun d => d.elim0⟩

/-- The one-bit word of a truth value is 1 exactly when the value is true. -/
theorem ofBool_eq_one (b : Bool) : BitVec.ofBool b = 1#1 ↔ b = true := by cases b <;> decide

/-- The word 0x7F800000 denotes plus infinity. -/
theorem posInf_eq : Ideal.ofBits .f32 0x7F800000#32 = ⊤ := by
  simp [Ideal.ofBits, Ideal.ieee]

/-- An extended real whose absolute value is below plus infinity is a real number. -/
theorem real_of_abs_lt (x : EReal)
    (h : Ideal.cmp .olt (max x (-x)) (Ideal.ofBits .f32 0x7F800000#32) = 1#1) :
    ∃ r : ℝ, x = (r : EReal) := by
  rw [posInf_eq] at h
  unfold Ideal.cmp at h
  rw [ofBool_eq_one] at h
  simp only [decide_eq_true_eq] at h
  induction x using EReal.rec with
  | bot => simp at h
  | coe r => exact ⟨r, rfl⟩
  | top => simp at h

/-- Under the precondition all four inputs hold only real numbers. -/
theorem allReal_of_pre [hP : Cert.Pre_finite_inputs.Facts]
    (x0 : Cert.KernelIdeal.S4x8x2048x64.Idx → EReal) (x1 : Cert.KernelIdeal.S4x8x64x2048.Idx → EReal)
    (x2 : Cert.KernelIdeal.S4x8x2048x64.Idx → EReal) (x3 : Cert.KernelIdeal.S4x8x2048x2048.Idx → EReal)
    (h : Cert.Pre_finite_inputs.fn (F := Idealize.ShloMosaic.Ideal) x0 x1 x2 x3 = (fun _ => 1#1)) :
    AllReal x0 ∧ AllReal x1 ∧ AllReal x2 ∧ AllReal x3 := by
  have e := congrFun h ValueIdx.ix0
  unfold Cert.Pre_finite_inputs.fn Cert.Pre_finite_inputs.fn_part1 at e
  simp only [andi] at e
  rw [IntOp.andi_eq_one, IntOp.andi_eq_one, IntOp.andi_eq_one] at e
  obtain ⟨⟨⟨e0, e1⟩, e2⟩, e3⟩ := e
  refine ⟨fun i => ?_, fun i => ?_, fun i => ?_, fun i => ?_⟩
  · exact real_of_abs_lt _ (Host.reduce_andi_all _ _ _ _ _ e0 i)
  · exact real_of_abs_lt _ (Host.reduce_andi_all _ _ _ _ _ e1 i)
  · exact real_of_abs_lt _ (Host.reduce_andi_all _ _ _ _ _ e2 i)
  · exact real_of_abs_lt _ (Host.reduce_andi_all _ _ _ _ _ e3 i)

end Cert.Attn

end
-- ==== Proof.lean ====
/-
  The certificate of the attention kernel against its reference, on the extended reals.
  Both programs compute, per (batch, head) and query row, the scores (q·k)·(1/8) + bias, their softmax along the row,
  and the softmax-weighted sum of the value rows. The kernel does so block by block on arrays with batch and head
  merged, narrowing the matrix products' operands to a shorter float format (the identity on the extended reals) and
  multiplying by the reciprocal of the row sum where the reference divides by the row sum. The two agree once the row
  sum is not zero, which holds for finite inputs: the scores are then real, so is their maximum, every exponential is
  a positive real and the row sum is a positive real. The reference also takes one more maximum against minus
  infinity and starts its row sum from zero; both change nothing.
  The frames of the two kernel programs and the kernel's run are read off the generated frame certificate; the
  reference's run and its stages are the generated ones. The ideal pass rewrote nothing, so the kernel's idealization
  is its own text.
-/
import proofs.«159788_j2164663517287_2_alg».proof.Defs
import proofs.«159788_j2164663517287_2_alg».proof.Proof.Gen.Kernel
import proofs.«159788_j2164663517287_2_alg».proof.Proof.Gen.Kernel.Skeleton
import proofs.«159788_j2164663517287_2_alg».proof.Proof.Gen.Kernel.Launch
import proofs.«159788_j2164663517287_2_alg».proof.Proof.Gen.Kernel.Points
import proofs.«159788_j2164663517287_2_alg».proof.Proof.Gen.Kernel.Frame
import proofs.«159788_j2164663517287_2_alg».proof.Proof.Gen.KernelIdeal
import proofs.«159788_j2164663517287_2_alg».proof.Proof.Gen.KernelIdeal.Skeleton
import proofs.«159788_j2164663517287_2_alg».proof.Proof.Gen.KernelIdeal.Launch
import proofs.«159788_j2164663517287_2_alg».proof.Proof.Gen.KernelIdeal.Points
import proofs.«159788_j2164663517287_2_alg».proof.Proof.Gen.KernelIdeal.Frame
import proofs.«159788_j2164663517287_2_alg».proof.Proof.Gen.ReferenceIdeal
import proofs.«159788_j2164663517287_2_alg».proof.Proof.Gen.ReferenceIdeal.Run
import proofs.«159788_j2164663517287_2_alg».proof.Proof.Gen.ReferenceIdeal.Read
import proofs.«159788_j2164663517287_2_alg».proof.Proof.Gen.Pre_finite_inputs
import proofs.«159788_j2164663517287_2_alg».proof.Proof.KernelSpec
import proofs.«159788_j2164663517287_2_alg».proof.Proof.RefValue
import proofs.«159788_j2164663517287_2_alg».proof.Proof.Finite
import Idealize.ShloMosaic.Adequacy
import Idealize.ShloMosaic.Init

noncomputable section

namespace Cert.Proof

open Idealize.ShloMosaic Idealize.SL.Sem

theorem frame_kernel [hPre : Cert.Pre_finite_inputs.Facts] : Cert.frame_Kernel (hKernel := Cert.Kernel.Gen.facts) :=
  fun m ρ _ => Cert.Kernel.Gen.frame m ρ

theorem frame_kernelIdeal [hPre : Cert.Pre_finite_inputs.Facts] : Cert.frame_KernelIdeal (hKernelIdeal := Cert.KernelIdeal.Gen.facts) :=
  fun m ρ _ => Cert.KernelIdeal.Gen.frame m ρ

/-- The reference has no kernel: its frame is its run with the results dropped. -/
theorem frame_referenceIdeal [hPre : Cert.Pre_finite_inputs.Facts] :
    Cert.frame_ReferenceIdeal (hReferenceIdeal := Cert.ReferenceIdeal.Gen.facts) :=
  fun m ρ _ => (θ_run Cert.ReferenceIdeal.defs _ _).mono (fun _ h c => (h c).2.2.2)
    (Cert.ReferenceIdeal.Value.run (F := Ideal) m ρ)

/-- Under the precondition no row of exponentials sums to zero: finite inputs give real scores. -/
theorem rowSum_ne_zero_of_pre [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (b : Fin 4) (h : Fin 8) (l : Fin 2048) :
    Cert.Attn.rowSum
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)) b h l ≠ 0 := by
  obtain ⟨h0, h1, -, h3⟩ := Cert.Attn.allReal_of_pre _ _ _ _ (hpre c)
  exact Cert.Attn.rowSum_ne_zero _ _ _ h0 h1 h3 b h l

/-- From memories agreeing on the arguments both programs end with the specification's three arrays of the kernel's
    arguments: the kernel by its run, the reference by its run, its stages read as the specification, and the
    arguments' agreement. -/
theorem algebraic [hPre : Cert.Pre_finite_inputs.Facts] :
    Cert.algebraic_KernelIdeal_ReferenceIdeal (hKernelIdeal := Cert.KernelIdeal.Gen.facts)
      (hReferenceIdeal := Cert.ReferenceIdeal.Gen.facts) := by
  intro m ρ m' ρ' hpre hagree
  refine ⟨_, _, _, Cert.Attn.run_spec m ρ, ?_⟩
  refine (θ_run Cert.ReferenceIdeal.defs _ _).mono (fun _ h c => ?_) (Cert.ReferenceIdeal.Value.run (F := Ideal) m' ρ')
  obtain ⟨a0, a1, a2, a3⟩ := hagree c
  obtain ⟨r15, r14, r3, rargs⟩ := h c
  have hsum := rowSum_ne_zero_of_pre m hpre c
  refine ⟨r15.trans ?_, r14.trans ?_, r3.trans ?_, rargs⟩
  · rw [Cert.ReferenceIdeal.Read.val_main_v15_eq, a0, a1, a2, a3]
    exact Cert.Attn.Ref.outArr_eq _ _ _ _ hsum
  · rw [Cert.ReferenceIdeal.Read.val_main_v14_eq, a0, a1, a3]
    exact Cert.Attn.Ref.weightArr_eq _ _ _ hsum
  · rw [Cert.ReferenceIdeal.Read.val_main_v3_eq, a0, a1, a3]
    exact Cert.Attn.Ref.scoreArr_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
